-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x1 : Shape := ⟨2, ![8192, 1]⟩
abbrev S1024x512 : Shape := ⟨2, ![1024, 512]⟩
abbrev S2048x512 : Shape := ⟨2, ![2048, 512]⟩
abbrev S1024x1 : Shape := ⟨2, ![1024, 1]⟩
abbrev S1024x2048 : Shape := ⟨2, ![1024, 2048]⟩
abbrev S1024 : Shape := ⟨1, ![1024]⟩
abbrev S8192 : Shape := ⟨1, ![8192]⟩

abbrev nBuf : Space → Nat
  | .hbm => 49
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x1, .f32⟩
  | .hbm, ⟨24, _⟩ => ⟨S8192, .f32⟩
  | .hbm, ⟨25, _⟩ => ⟨S8192x512, .bf16⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S4096x512, .f32⟩
  | .hbm, ⟨36, _⟩ => ⟨S_, .f32⟩
  | .hbm, ⟨37, _⟩ => ⟨S4096, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  shapeCasts_S8192x1_S8192 : S8192x1.ShapeCasts S8192
  reducesTo_S8192x512_S8192_d1 : S8192x512.ReducesTo [1] S8192
  bcast_S_S8192 : S_.BroadcastsInDim S8192 (![] : Fin 0 → Fin S8192.rank)
  concatenates_S4096_S4096_S8192_d0 : Shape.Concatenates [S4096, S4096] S8192 0
  reducesTo_S8192_S_d0 : S8192.ReducesTo [0] S_
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v16) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x8192 : Shape := ⟨2, ![8192, 8192]⟩
abbrev S8192 : Shape := ⟨1, ![8192]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x8192, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S8192, .f32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KRuns.lean ====
/-
  What the runs of the kernel body share.

  The launch has a grid of 8 query blocks by 4 key blocks, visited key block fastest: point t is query block t / 4
  and key block t % 4.  Window 0 hands the body the 1024 rows of z of the query block, window 1 the 2048 rows of z
  of the key block (both windows read the ONE array z), window 2 is the query block's 1024 sums, and a scratch
  column carries the running sums from one key block to the next.  The body has two conditionals on the key block:
  at key block 0 it first clears the scratch; at key block 3 it last copies the scratch into window 2.  So a point
  is in one of three cases: first (t % 4 = 0), middle (t % 4 = 1, 2), last (t % 4 = 3); window 2 is stored into,
  and written back, only in the last.
-/
import proofs.«168158_j18708877541981_2_alg».proof.Proof.Gen.Kernel.Launch
import proofs.«168158_j18708877541981_2_alg».proof.Proof.Gen.Kernel.Skeleton
import proofs.«168158_j18708877541981_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The core's buffers when the launch is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry point is the host operations before the launch, the launch, and the host operations after it: it
    reduces to the launch continued by the later operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The later operations touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write neither z nor the launch's result: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query rows' staging buffer holds the query block at every point, fetched there or not (between two fetches
    the block index does not move), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the key rows' staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is key block 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is key block 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from key block 3 the body stores nothing into window 2, and the launch does not write it back there. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At key block 3 it does. -/
theorem liveAt0_2 : ∀ t : Fin cfg0.N, cond0_1 (grid0.coords t) → cfg0.idle 2 (grid0.coords t) = false := by decide +kernel

/-! ## The staging memrefs and the scratch -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column of running sums. -/
abbrev scM0_0 : Memref sig .tc .vmem S1024x1 .f32 := Memref.whole cc0_scratch0
abbrev VS0_0 : View sig .tc .vmem S1024x1 .f32 := scM0_0.view
/-- One staging buffer of window 2, through which its contents are stated. -/
abbrev VO0_2 : View sig .tc .vmem S1024x1 .f32 := (Memref.whole cc0_stg2_0 : Memref sig .tc .vmem S1024x1 .f32).view

/-- The launch's scoped rest is the scratch column, whole, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Frame

end
-- ==== Proof.KRunA.lean ====
/-
  The body at a point of key block 0 (the first case): the scratch column is cleared, then the key block's
  sums are added into it; nothing is stored into window 2.  The body's triple on any whole staging memrefs: the two
  input buffers at their contents and window 2's buffer are handed back untouched, the scratch — found at anything —
  ends with the pieces the two stores wrote, which the run finds.
-/
import proofs.«168158_j18708877541981_2_alg».proof.Proof.KRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc0__ntxent_denom_kernel i arg2 harg2 arg3 harg3 arg4 harg4 arg5 harg5) K } := by
  refine ⟨?_, fun xi2 E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.KRunB.lean ====
/-
  The body at a point of key block 1 or 2 (the middle case): the key block's sums are added into the scratch
  column, which the point before left at `xs0`; nothing is stored into window 2.
-/
import proofs.«168158_j18708877541981_2_alg».proof.Proof.KRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc0__ntxent_denom_kernel i arg2 harg2 arg3 harg3 arg4 harg4 arg5 harg5) K } := by
  refine ⟨?_, fun xi2 E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frame

end
-- ==== Proof.KRunC.lean ====
/-
  The body at a point of key block 3 (the last case): the key block's sums are added into the scratch column,
  which the point before left at `xs0`, and the column is then copied into window 2's buffer, found at anything.
-/
import proofs.«168158_j18708877541981_2_alg».proof.Proof.KRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__ntxent_denom_kernel i arg2 harg2 arg3 harg3 arg4 harg4 arg5 harg5) K } := by
  refine ⟨?_, ?_, fun E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frame

end
-- ==== Proof.KFrame.lean ====
/-
  The launch's proof data and the body obligation.

  What a point leaves: in the first and middle cases only the scratch column changes; in the last case window 2's
  buffer also ends holding the column.  What each buffer ends with is read back from the pieces the case's run
  found; each case's pieces tile the buffer (one whole-buffer store covers it), so the read-back does not depend on
  what the buffer held before.  The scratch column after point n is defined by recursion on n: the case of n, run
  on the blocks of n and, but in the first case, on the column point n - 1 left.  The launch's invariant before
  point n is the scratch at that column (before point 0: at anything).  The two input windows read ONE array, so
  the full share of its buffer is dealt in halves between them.
-/
import proofs.«168158_j18708877541981_2_alg».proof.Proof.KRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) (y : S1024x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x1.size (by sl_kernel_rfl) y

/-- The scratch column after a point of the first case. -/
def sout0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) : Vec F S1024x1 .f32 :=
  VS0_0.read (Elt F) (VS0_0.writes (Elt F) VS0_0.junk (kernelRun0_A c i arg2 harg2 arg3 harg3 arg4 harg4 arg5 harg5 hc0 hc1 x0 x1).1)

theorem scover0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) (y : S1024x1.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x1.size (by sl_kernel_rfl) y

/-- The scratch column after a point of the middle case. -/
def sout0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).1)

theorem cover0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- Window 2's buffer after a point of the last case. -/
def out0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- The scratch column after a point of the last case. -/
def sout0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## The accumulation, point by point -/

/-- After the body at position `n`: (window 2's buffer, the scratch column).  Away from the last case window 2's
    component is not consulted (the window is idle there and not written back); it repeats the column. -/
def outsAt0 (c : Dev nD) : (n : ℕ) → n < cfg0.N → Vec F S1024x1 .f32 × Vec F S1024x1 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt =
      (sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
       sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt =
      (sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
       sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt =
      (out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
       sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch column between points -/

def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) :
    PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the launch finds them; after the body each input's buffer at its block, window 2's at the
    accumulation's first component; the invariant the scratch column; nothing owed; the one array behind the two
    input windows held in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in;
    the invariant hands the body the scratch column the point before left (anything at the very first point, and
    at every first-case point the column is cleared whatever it held) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 32 := lt_of_lt_of_eq t.isLt (show cfg0.N = 32 from N_0)
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A; (try dsimp only)
    have hrun := fun xi2 K => (kernelRun0_A (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2 xi2 Set.univ K
    by_cases hz : t.val = 0
    · rw [PhiS_castSucc m c t, PhiS_zero m c _ _ hz]
      iintro ⟨HS0, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C sout0_C; (try dsimp only)
      rw [PhiS_castSucc m c t, PhiS_pos m c _ _ hz]
      iintro ⟨HS0, Ho, ⟨%d0, H0⟩, ⟨%d1, H1⟩, ⟨%d2, H2⟩⟩
      iapply ((kernelRun0_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B; (try dsimp only)
      rw [PhiS_castSucc m c t, PhiS_pos m c _ _ hz]
      iintro ⟨HS0, Ho, ⟨%d0, H0⟩, ⟨%d1, H1⟩, ⟨%d2, H2⟩⟩
      iapply ((kernelRun0_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scratch at anything) is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_eq]

/-- After the last point the invariant gives it back, the column's contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_eq]
  iintro HS0
  iexists _; iexact HS0

end Cert.Kernel.Frame

end
-- ==== Proof.LibSharedTail.lean ====
/-
  A pipeline whose windows SHARE an array, launched as a frame whose region invariant is TRACKED from point to point
  and whose @main goes on AFTER the region with straight lines of host operations.

  One region on a static grid, no semaphore or transfer of the kernel's own.  One array may be handed to the kernel
  through several input windows: the buffers behind the arrays are then fewer than the windows, and the full share
  of a shared buffer is DEALT among the windows that read it.  How, the caller says, three times: at the region's
  entry (hsplit: the buffers at the entry contents yield the proof data's arrays at point 0), at its exit (hjoin:
  the arrays at the last point are collected into the buffers again, at contents W the caller names), and once the
  host lines are done (hdeal: the buffers at W are dealt back, the lines writing no array).

  The region invariant is the proof data's own: it is entered from the scoped rest (hin) and gives the scoped rest
  back at the last point (hout); between, the certificate tracks it, so a scratch buffer may carry a value from one
  grid point to the next.

  The host lines after the region run within all the unscoped buffers of the core.  They may read an array and
  write any buffer that is no array.  The arrays' buffers and the bypassing buffers, put together, are exactly the
  unscoped buffers held at one valuation, which is the form in which a line of host operations is run; after the
  lines they are taken apart in the same way at the contents the lines leave.

  The conclusion reads every window's array after the run at what the proof data compute for it, and every
  bypassing buffer at what the lines compute from the region's exit contents W.
-/
import Idealize.ShloMosaic.Lib.Pipeline.FrameSuffix

noncomputable section

namespace Idealize.ShloMosaic

open Idealize.SL
open Idealize.SL.BI (sProp bigSep bigSep_map bigSep_union bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedTailGeneral

variable {Ix : Type} [DecidableEq Ix] {Name : Type} [DecidableEq Name] {U : Type} [URA U] {Lvl : Type}
variable {Λ₀ : SL.Sem.Labels} {P : Type} [Fintype P] [DecidableEq P]
variable (pcs : P → PCfg sig Λ₀ Val) (defs₀ : Defs nD τ sig Val Λ₀) (𝒱₀ : Variants)

local notation "𝕄" => MT nD τ sig Ix Val Name U Lvl
local notation "𝔻" => Pipeline.defs pcs defs₀
local notation "𝕍" => Variants.lift 𝒱₀

omit [Fintype P] [DecidableEq P] in
/-- A core's unscoped buffers at contents V are the distinct buffers behind the windows' arrays at V and the
    bypassing buffers at V, whether or not two windows name the same array: the arrays' buffers are a subset of
    the unscoped ones, and the bypassing buffers are the complement. -/
theorem unscopedBufs_arr_rest {gr : Nat} {W : Nat} (win : Fin W → WinSpec sig gr) (hun : ∀ w, (arrRef win w).isScoped = false)
    (c : Dev nD) (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  unfold unscopedBufs unscopedRest arrBufs
  rw [bigSep_sdiff_split hA]
  rfl

omit [Fintype P] [DecidableEq P] in
/-- The unscoped references held at a valuation Wv are the arrays' buffers at Wv and the bypassing buffers at Wv. -/
theorem held_ucRefs_arr_rest {gr : Nat} {W : Nat} (win : Fin W → WinSpec sig gr) (hun : ∀ w, (arrRef win w).isScoped = false)
    (c : Dev nD) (Wv : Valuation τ sig Val) :
    (StableHlo.held (c.tc : Thread nD τ) (ucRefs τ sig) Wv : sProp 𝕄)
      = iprop((arrBufs win c (fun b => Wv (Proc.devRef .tc b)) : sProp 𝕄) ∗ unscopedRest win c (fun b => Wv (Proc.devRef .tc b))) := by
  rw [← unscopedBufs_held (Ix := Ix) (Name := Name) (U := U) (Lvl := Lvl) c Wv]
  exact unscopedBufs_arr_rest win hun c _

omit [Fintype P] [DecidableEq P] in
/-- Lines that write no array leave the arrays' buffers at the contents they had. -/
theorem arrBufs_after {gr : Nat} {W : Nat} (win : Fin W → WinSpec sig gr) (c : Dev nD) (Wv : Valuation τ sig Val)
    (ops : List (HloOp τ sig Val)) (hkeep : ∀ op ∈ ops, ∀ w, Proc.devRef .tc (arrRef win w) ∉ op.writes) :
    (arrBufs win c (fun b => StableHlo.after ops Wv (Proc.devRef .tc b)) : sProp 𝕄) = arrBufs win c (fun b => Wv (Proc.devRef .tc b)) := by
  classical
  unfold arrBufs
  refine bigSep_congr fun b hb => ?_
  obtain ⟨w, -, rfl⟩ := Finset.mem_image.mp hb
  beta_reduce
  rw [StableHlo.after_of_forall_not_mem ops Wv fun op hop => hkeep op hop w]

omit [Fintype P] [DecidableEq P] in
set_option backward.isDefEq.respectTransparency.types false in
/-- THE LINES AFTER THE REGION when windows may share an array: within all the unscoped buffers (hsub), writing
    no array (hkeep), the lines run from the arrays' buffers and the bypassing buffers at Wv to the arrays' buffers
    at Wv still and the bypassing buffers at the contents the lines leave. -/
theorem tail_seqs_shared [Preorder Lvl] {gr : Nat} {W : Nat} (win : Fin W → WinSpec sig gr) (hun : ∀ w, (arrRef win w).isScoped = false)
    (c : Dev nD) (Wv : Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop((arrBufs win c (fun b => Wv (Proc.devRef .tc b)) : sProp 𝕄)
              ∗ unscopedRest win c (fun b => StableHlo.after opss.flatten Wv (Proc.devRef .tc b))) -∗ Q' ⟨⟩)
        ∗ boundary (c.tc : Thread nD τ) ∗ (arrBufs win c (fun b => Wv (Proc.devRef .tc b)) : sProp 𝕄)
        ∗ unscopedRest win c (fun b => Wv (Proc.devRef .tc b)))
      ⊢ wp frame (wpE 𝔻 𝕍 (c.tc : Thread nD τ) none) Set.univ (chain (opss.map StableHlo.seq)) Q' := by
  classical
  have hW' : (StableHlo.held (c.tc : Thread nD τ) (ucRefs τ sig) (StableHlo.after opss.flatten Wv) : sProp 𝕄)
      = iprop((arrBufs win c (fun b => Wv (Proc.devRef .tc b)) : sProp 𝕄)
          ∗ unscopedRest win c (fun b => StableHlo.after opss.flatten Wv (Proc.devRef .tc b))) := by
    rw [held_ucRefs_arr_rest win hun c, arrBufs_after win c Wv opss.flatten fun op hop w => by
      obtain ⟨ops, hops, hop⟩ := List.mem_flatten.mp hop
      exact hkeep ops hops op hop w]
  rw [← List.append_nil (opss.map StableHlo.seq), ← held_ucRefs_arr_rest win hun c Wv]
  iintro ⟨Hk, Hb⟩
  iapply (wp_seqs_then pcs defs₀ 𝒱₀ c (ucRefs τ sig) [] opss hsub hfresh Wv) $$ Hb
  iintro Hb
  rw [chain_nil, wp_pure, hW']
  imodintro
  iapply Hk
  icases Hb with ⟨-, H⟩
  iexact H

end SharedTailGeneral

section SharedTail

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN of a kernel whose input windows may share arrays, with a TRACKED region invariant and host lines
    AFTER the region: from any memory with zero counters every weakly fair execution of @main terminates, nothing
    faulting; every window's array ends at the proof data's arrAt w N, and every unscoped buffer that is no
    window's array ends at what the lines compute (StableHlo.after) from the contents W at the region's exit.
    The caller supplies the layout (the staging cells distinct, the windows' facts but for the arrays'
    distinctness, no block empty, arrays and staging memrefs whole buffers), the proof data and their body
    obligation, nothing owed, @main reduced to the region continued by the lines (hmain), the lines within the
    unscoped buffers (hsub), allocating nothing (hfresh), writing no array (hkeep), the deal of the buffers behind
    the arrays among the windows at entry (hsplit), the exit contents W, equal to the entry contents off the arrays
    (hWrest), into which the windows' shares are collected at the last point (hjoin) and from which they are
    dealt again after the lines (hdeal), and the invariant's two ends: the scoped rest yields it at point 0 (hin),
    and at the last point it yields the scoped rest (hout). -/
theorem θ_run_frame_sharedArrays_around_track
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (W : Dev nD → Valuation τ sig Val)
    (hWrest : ∀ c (b : Ref sig .tc), (∀ w, arrRef (cfg).spec w ≠ b) → W c (Proc.devRef .tc b) = V₀ c (Proc.devRef .tc b))
    (hjoin : ∀ c, (dats p c).arrays ((dats p c).arrAt · (cfg).N) ⊢ (arrBufs (cfg).spec c (fun b => W c (Proc.devRef .tc b)) : sProp 𝕄))
    (hdeal : ∀ c, (arrBufs (cfg).spec c (fun b => W c (Proc.devRef .tc b)) : sProp 𝕄) ⊢ (dats p c).arrays ((dats p c).arrAt · (cfg).N))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g)
      (fun r => ∀ c : Dev nD,
        (∀ w, r.2.mem (((cfg).spec w).arr.view.loc (c.tc : Thread nD τ)) = (dats p c).arrAt w (cfg).N)
        ∧ ∀ b ∈ restRefs sig (cfg).spec, r.2.mem ((c.tc : Thread nD τ).loc b) = StableHlo.after opss.flatten (W c) (Proc.devRef .tc b)) := by
  classical
  -- off the arrays the exit contents are the entry contents, so the bypassing buffers are held at either
  have hZ : ∀ c, (unscopedRest (cfg).spec c (fun b => V₀ c (Proc.devRef .tc b)) : sProp 𝕄)
      = unscopedRest (cfg).spec c (fun b => W c (Proc.devRef .tc b)) := fun c => by
    unfold unscopedRest
    refine bigSep_congr fun b hb => ?_
    beta_reduce
    rw [hWrest c b fun w e => (Finset.mem_sdiff.mp hb).2 (Finset.mem_image.mpr ⟨w, Finset.mem_univ _, e⟩)]
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (W c) (Proc.devRef .tc b)))
    (hX := fun c => by
      rw [unscopedRestP_none]
      iintro H
      isplitr
      · iempintro
      · iexact H)
    (hin := fun c => by
      iintro ⟨-, -, H⟩
      iapply hin c
      iexact H)
    (hout := fun c => by
      iintro H
      isplitr
      · iempintro
      · iapply hout c
        iexact H)
    (htail := fun c Q' => by
      rw [hZ c]
      iintro ⟨Hk, Hb, HA, HZ⟩
      iapply (tail_seqs_shared (fun q => Cfg.toPCfg (Val := Val) (cfgs q)) defs₀ 𝒱₀ (cfg).spec hw.arr_unscoped c (W c) opss hsub hfresh hkeep Q')
      isplitl [Hk]
      · iintro ⟨HA', HZ'⟩
        iapply Hk
        isplitl [HA']
        · iapply hdeal c
          iexact HA'
        · iexact HZ'
      isplitl [Hb]
      · iexact Hb
      isplitl [HA]
      · iapply hjoin c
        iexact HA
      · iexact HZ)
    (QY := fun c s => ∀ b ∈ restRefs sig (cfg).spec,
      s.mem ((c.tc : Thread nD τ).loc b) = StableHlo.after opss.flatten (W c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (W c) (Proc.devRef .tc b)) s')
      isplitl [HU] <;> iassumption)
    (hQ := fun s h c => ⟨(h c).1, (h c).2.2⟩)

end SharedTail

end Pipeline

end Idealize.ShloMosaic

end
-- ==== Proof.KLaunch.lean ====
/-
  The launch of the kernel: the deal of the one buffer behind the two input windows, and the run of the entry point.

  Windows 0 and 1 read ONE array, z; window 2 writes the array of sums.  So the buffers behind the windows' arrays
  are two, z's and the sums', while the windows are three.  At the region's entry the full share of z's buffer is
  dealt in halves, the left to window 0 and the right to window 1; the sums' buffer goes whole to window 2.  An input
  window's array is never written, so at the region's exit both halves still hold z as the region found it and are
  joined into the full share again; the sums' buffer holds what the write-backs made of it.  The core's buffers at
  the exit are therefore the entry contents with the sums' buffer replaced.  The host operations after the region
  write neither array, so the same deal holds after them.
-/
import proofs.«168158_j18708877541981_2_alg».proof.Proof.KFrame
import proofs.«168158_j18708877541981_2_alg».proof.Proof.LibSharedTail

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The core's buffers at the region's exit -/

/-- The core's buffers when the region is left: as it was entered, but the buffer of sums at what the write-backs
    of all the points made of it. -/
def Wx (c : Dev nD) : Valuation τ sig (Elt F) :=
  Function.update (V0 m c) (Proc.devRef .tc main_v17) ((dats m 0 c).arrAt 2 cfg0.N)

theorem Wx_v17 (c : Dev nD) : Wx m c (Proc.devRef .tc main_v17) = (dats m 0 c).arrAt 2 cfg0.N := by
  unfold Wx; exact Function.update_self _ _ _

theorem Wx_of_ne (c : Dev nD) (b : Ref sig .tc) (h : b ≠ main_v17) :
    Wx m c (Proc.devRef .tc b) = V0 m c (Proc.devRef .tc b) := by
  unfold Wx; exact Function.update_of_ne (StableHlo.devRef_ne_of_ne h) _ _

/-! ## The buffers behind the arrays, and the arrays -/

/-- The buffers behind the three windows' arrays are two: z's and the sums'. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v16) ↦{fullShare} Vv main_v16) ∗ (((c : Thread nD τ).loc main_v17) ↦{fullShare} Vv main_v17)) := by
  unfold Pipeline.arrBufs
  rw [show Finset.univ.image (Pipeline.arrRef spec0) = {main_v16, main_v17} from by decide,
    bigSep_insert (by decide), bigSep_singleton]
  rfl

/-- The windows' arrays: z's buffer at the left half for window 0 and at the right half for window 1, the sums'
    buffer whole for window 2. -/
theorem arrays_eq (c : Dev nD) (Fn : (w : Fin cfg0.W) → Buf (Elt F) ((cfg0.win w).arr.view.loc (c : Thread nD τ))) :
    ((dats m 0 c).arrays Fn : sProp 𝕄)
      = iprop((((c : Thread nD τ).loc main_v16) ↦{fullShare.left} Fn 0) ∗ (((c : Thread nD τ).loc main_v16) ↦{fullShare.right} Fn 1)
          ∗ (((c : Thread nD τ).loc main_v17) ↦{fullShare} Fn 2)) := by
  unfold Dat.arrays
  rw [bigSep_W0, (arr_whole0 0).set_eq_univ, (arr_whole0 2).set_eq_univ]
  rfl

/-- An input window's array is never written: window 0's holds z as the region found it, at every point. -/
theorem arrAt_0 (c : Dev nD) (n : ℕ) : (dats m 0 c).arrAt 0 n = V m c main_v16 := by
  rw [(dats m 0 c).arrAt_in 0 rfl n, A_eq]

/-- And so does window 1's. -/
theorem arrAt_1 (c : Dev nD) (n : ℕ) : (dats m 0 c).arrAt 1 n = V m c main_v16 := by
  rw [(dats m 0 c).arrAt_in 1 rfl n, A_eq]

/-- Before any write-back the buffer of sums holds what the region found there. -/
theorem arrAt_2_zero (c : Dev nD) : (dats m 0 c).arrAt 2 0 = V m c main_v17 := by
  rw [show (dats m 0 c).arrAt 2 0 = (dats m 0 c).A 2 from rfl, A_eq]

/-- The arrays after the write-backs of the points below n: the two halves of z's buffer at z, the sums' buffer at
    what those write-backs made of it. -/
theorem arrays_at (c : Dev nD) (n : ℕ) :
    ((dats m 0 c).arrays ((dats m 0 c).arrAt · n) : sProp 𝕄)
      = iprop((((c : Thread nD τ).loc main_v16) ↦{fullShare.left} V m c main_v16) ∗ (((c : Thread nD τ).loc main_v16) ↦{fullShare.right} V m c main_v16)
          ∗ (((c : Thread nD τ).loc main_v17) ↦{fullShare} (dats m 0 c).arrAt 2 n)) := by
  rw [arrays_eq]
  beta_reduce
  rw [arrAt_0, arrAt_1]

/-! ## The deal of z's buffer between the two input windows -/

/-- A buffer held whole at the full share is the buffer held at the left half and at the right half, -/
theorem halves_split (ℓ : Loc nD τ sig) (f : ℓ.ty.Contents (Elt F)) :
    (ℓ ↦{fullShare} f : sProp 𝕄) ⊢ iprop((ℓ ↦{fullShare.left} f) ∗ ℓ ↦{fullShare.right} f) :=
  (pointsTo_share (PosShare.mem_left_op_right fullShare)).1

/-- and the two halves at the same contents are the full share again. -/
theorem halves_join (ℓ : Loc nD τ sig) (f : ℓ.ty.Contents (Elt F)) :
    iprop((ℓ ↦{fullShare.left} f) ∗ ℓ ↦{fullShare.right} f) ⊢ (ℓ ↦{fullShare} f : sProp 𝕄) :=
  (pointsTo_share (PosShare.mem_left_op_right fullShare)).2

/-- Off the arrays the exit contents are the entry contents. -/
theorem hWrest (c : Dev nD) (b : Ref sig .tc) (h : ∀ w, Pipeline.arrRef (cfgs 0).spec w ≠ b) :
    Wx m c (Proc.devRef .tc b) = V0 m c (Proc.devRef .tc b) :=
  Wx_of_ne m c b fun e => h 2 (by subst e; rfl)

/-- At entry: z's buffer is dealt in halves to windows 0 and 1, the sums' buffer goes whole to window 2. -/
theorem hsplit (c : Dev nD) :
    (Pipeline.arrBufs (Ix := Unit) (Name := ℕ) (U := UR sig nD τ) (Lvl := ℕ) (cfgs 0).spec c (fun b => V0 m c (Proc.devRef .tc b)) : sProp 𝕄)
      ⊢ (dats m 0 c).arrays ((dats m 0 c).arrAt · 0) := by
  rw [arrBufs_eq, arrays_at, arrAt_2_zero]
  iintro ⟨H16, H17⟩
  ihave H := (halves_split _ _) $$ H16
  icases H with ⟨Hl, Hr⟩
  isplitl [Hl]; · iexact Hl
  isplitl [Hr]; · iexact Hr
  iexact H17

/-- At the exit: the two halves, still at z, are joined; the sums' buffer is at what the write-backs made of it. -/
theorem hjoin (c : Dev nD) :
    (dats m 0 c).arrays ((dats m 0 c).arrAt · (cfgs 0).N)
      ⊢ (Pipeline.arrBufs (Ix := Unit) (Name := ℕ) (U := UR sig nD τ) (Lvl := ℕ) (cfgs 0).spec c (fun b => Wx m c (Proc.devRef .tc b)) : sProp 𝕄) := by
  rw [arrBufs_eq, arrays_at]
  beta_reduce
  rw [Wx_of_ne m c main_v16 (by decide), Wx_v17]
  iintro ⟨Hl, Hr, H17⟩
  isplitr [H17]
  · iapply (halves_join _ _)
    isplitl [Hl]; · iexact Hl
    iexact Hr
  · iexact H17

/-- After the host operations, which write neither array: the same deal again. -/
theorem hdeal (c : Dev nD) :
    (Pipeline.arrBufs (Ix := Unit) (Name := ℕ) (U := UR sig nD τ) (Lvl := ℕ) (cfgs 0).spec c (fun b => Wx m c (Proc.devRef .tc b)) : sProp 𝕄)
      ⊢ (dats m 0 c).arrays ((dats m 0 c).arrAt · (cfgs 0).N) := by
  rw [arrBufs_eq, arrays_at]
  beta_reduce
  rw [Wx_of_ne m c main_v16 (by decide), Wx_v17]
  iintro ⟨H16, H17⟩
  ihave H := (halves_split _ _) $$ H16
  icases H with ⟨Hl, Hr⟩
  isplitl [Hl]; · iexact Hl
  isplitl [Hr]; · iexact Hr
  iexact H17

/-! ## The run -/

set_option backward.isDefEq.respectTransparency.types false in
/-- THE RUN of the entry point: from any memory with zero counters every weakly fair execution terminates, nothing
    faulting; every window's array ends at what the proof data compute for it, and every other unscoped buffer at
    what the host operations after the region compute from the exit contents. -/
theorem run_main :
    θ_run defs (onTc (τ := τ) (main (F := F))) (s₀ m ρ)
      (fun r => ∀ c : Dev nD,
        (∀ w, r.2.mem (((cfgs 0).spec w).arr.view.loc (c.tc : Thread nD τ)) = (dats m 0 c).arrAt w (cfgs 0).N)
        ∧ ∀ b ∈ Pipeline.restRefs sig (cfgs 0).spec,
            r.2.mem ((c.tc : Thread nD τ).loc b) = StableHlo.after (List.flatten [hostOps1]) (Wx m c) (Proc.devRef .tc b)) :=
  Pipeline.θ_run_frame_sharedArrays_around_track cfgs (dats m) 0 defs₀ Variants.none cellOf_inj winFacts₀0 block_pos0 arr_whole0 stage_whole0
    m ρ main (fun c => (body_obligation m c).loose) (fun _ _ => rfl) (V0 m) [hostOps1] sfx_sub sfx_fresh sfx_keeps (hmain m Variants.none)
    (hsplit m) (Wx m) (hWrest m) (hjoin m) (hdeal m) (hin m) (hout m)

end Cert.Kernel.Frame

end
-- ==== Proof.KArgs.lean ====
/-
  The argument arrays through the run.

  No host operation, before or after the launch, writes an argument array, and no window of the launch is on one:
  so both arrays are, when the launch is entered and when the run ends, what they were at the start.  With the
  launch's run this is the frame: the program ends, nothing faulting, its arguments unchanged.
-/
import proofs.«168158_j18708877541981_2_alg».proof.Proof.KLaunch

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_arg0 (c : Dev nD) : V m c main_arg0 = m ((c : Thread nD τ).loc main_arg0) := by
  show StableHlo.after hostOps0 (fun b => m (c, b)) (Proc.devRef .tc main_arg0) = _
  after_results
  try rfl

theorem V_arg1 (c : Dev nD) : V m c main_arg1 = m ((c : Thread nD τ).loc main_arg1) := by
  show StableHlo.after hostOps0 (fun b => m (c, b)) (Proc.devRef .tc main_arg1) = _
  after_results
  try rfl

theorem tail_arg0 (c : Dev nD) :
    StableHlo.after (List.flatten [hostOps1]) (Wx m c) (Proc.devRef .tc main_arg0) = m ((c : Thread nD τ).loc main_arg0) := by
  show StableHlo.after hostOps1 (Wx m c) (Proc.devRef .tc main_arg0) = _
  after_results
  exact (Wx_of_ne m c main_arg0 (by decide)).trans (V_arg0 m c)

theorem tail_arg1 (c : Dev nD) :
    StableHlo.after (List.flatten [hostOps1]) (Wx m c) (Proc.devRef .tc main_arg1) = m ((c : Thread nD τ).loc main_arg1) := by
  show StableHlo.after hostOps1 (Wx m c) (Proc.devRef .tc main_arg1) = _
  after_results
  exact (Wx_of_ne m c main_arg1 (by decide)).trans (V_arg1 m c)

theorem arg0_rest : main_arg0 ∈ Pipeline.restRefs sig (cfgs 0).spec := by decide +kernel
theorem arg1_rest : main_arg1 ∈ Pipeline.restRefs sig (cfgs 0).spec := by decide +kernel

/-- The frame: the run ends, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (tail_arg0 m c),
      ((h c).2 main_arg1 arg1_rest).trans (tail_arg1 m c)⟩) (run_main m ρ)

end Cert.Kernel.Frame

end
-- ==== Proof.KIRuns.lean ====
/-
  What the runs of the kernel body share.

  The launch has a grid of 8 query blocks by 4 key blocks, visited key block fastest: point t is query block t / 4
  and key block t % 4.  Window 0 hands the body the 1024 rows of z of the query block, window 1 the 2048 rows of z
  of the key block (both windows read the ONE array z), window 2 is the query block's 1024 sums, and a scratch
  column carries the running sums from one key block to the next.  The body has two conditionals on the key block:
  at key block 0 it first clears the scratch; at key block 3 it last copies the scratch into window 2.  So a point
  is in one of three cases: first (t % 4 = 0), middle (t % 4 = 1, 2), last (t % 4 = 3); window 2 is stored into,
  and written back, only in the last.
-/
import proofs.«168158_j18708877541981_2_alg».proof.Proof.Gen.KernelIdeal.Launch
import proofs.«168158_j18708877541981_2_alg».proof.Proof.Gen.KernelIdeal.Skeleton
import proofs.«168158_j18708877541981_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The core's buffers when the launch is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry point is the host operations before the launch, the launch, and the host operations after it: it
    reduces to the launch continued by the later operations, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The later operations touch unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write neither z nor the launch's result: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query rows' staging buffer holds the query block at every point, fetched there or not (between two fetches
    the block index does not move), for any proof data whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the key rows' staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is key block 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is key block 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from key block 3 the body stores nothing into window 2, and the launch does not write it back there. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At key block 3 it does. -/
theorem liveAt0_2 : ∀ t : Fin cfg0.N, cond0_1 (grid0.coords t) → cfg0.idle 2 (grid0.coords t) = false := by decide +kernel

/-! ## The staging memrefs and the scratch -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch column of running sums. -/
abbrev scM0_0 : Memref sig .tc .vmem S1024x1 .f32 := Memref.whole cc0_scratch0
abbrev VS0_0 : View sig .tc .vmem S1024x1 .f32 := scM0_0.view
/-- One staging buffer of window 2, through which its contents are stated. -/
abbrev VO0_2 : View sig .tc .vmem S1024x1 .f32 := (Memref.whole cc0_stg2_0 : Memref sig .tc .vmem S1024x1 .f32).view

/-- The launch's scoped rest is the scratch column, whole, at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Frame

end
-- ==== Proof.KIRunA.lean ====
/-
  The body at a point of key block 0 (the first case): the scratch column is cleared, then the key block's
  sums are added into it; nothing is stored into window 2.  The body's triple on any whole staging memrefs: the two
  input buffers at their contents and window 2's buffer are handed back untouched, the scratch — found at anything —
  ends with the pieces the two stores wrote, which the run finds.
-/
import proofs.«168158_j18708877541981_2_alg».proof.Proof.KIRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc0__ntxent_denom_kernel i arg2 harg2 arg3 harg3 arg4 harg4 arg5 harg5) K } := by
  refine ⟨?_, fun xi2 E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.KIRunB.lean ====
/-
  The body at a point of key block 1 or 2 (the middle case): the key block's sums are added into the scratch
  column, which the point before left at `xs0`; nothing is stored into window 2.
-/
import proofs.«168158_j18708877541981_2_alg».proof.Proof.KIRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) :
    { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc0__ntxent_denom_kernel i arg2 harg2 arg3 harg3 arg4 harg4 arg5 harg5) K } := by
  refine ⟨?_, fun xi2 E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frame

end
-- ==== Proof.KIRunC.lean ====
/-
  The body at a point of key block 3 (the last case): the key block's sums are added into the scratch column,
  which the point before left at `xs0`, and the column is then copied into window 2's buffer, found at anything.
-/
import proofs.«168158_j18708877541981_2_alg».proof.Proof.KIRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__ntxent_denom_kernel i arg2 harg2 arg3 harg3 arg4 harg4 arg5 harg5) K } := by
  refine ⟨?_, ?_, fun E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frame

end
-- ==== Proof.KIFrame.lean ====
/-
  The launch's proof data and the body obligation.

  What a point leaves: in the first and middle cases only the scratch column changes; in the last case window 2's
  buffer also ends holding the column.  What each buffer ends with is read back from the pieces the case's run
  found; each case's pieces tile the buffer (one whole-buffer store covers it), so the read-back does not depend on
  what the buffer held before.  The scratch column after point n is defined by recursion on n: the case of n, run
  on the blocks of n and, but in the first case, on the column point n - 1 left.  The launch's invariant before
  point n is the scratch at that column (before point 0: at anything).  The two input windows read ONE array, so
  the full share of its buffer is dealt in halves between them.
-/
import proofs.«168158_j18708877541981_2_alg».proof.Proof.KIRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) (y : S1024x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x1.size (by sl_kernel_rfl) y

/-- The scratch column after a point of the first case. -/
def sout0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) : Vec F S1024x1 .f32 :=
  VS0_0.read (Elt F) (VS0_0.writes (Elt F) VS0_0.junk (kernelRun0_A c i arg2 harg2 arg3 harg3 arg4 harg4 arg5 harg5 hc0 hc1 x0 x1).1)

theorem scover0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) (y : S1024x1.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x1.size (by sl_kernel_rfl) y

/-- The scratch column after a point of the middle case. -/
def sout0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).1)

theorem cover0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- Window 2's buffer after a point of the last case. -/
def out0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- The scratch column after a point of the last case. -/
def sout0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## The accumulation, point by point -/

/-- After the body at position `n`: (window 2's buffer, the scratch column).  Away from the last case window 2's
    component is not consulted (the window is idle there and not written back); it repeats the column. -/
def outsAt0 (c : Dev nD) : (n : ℕ) → n < cfg0.N → Vec F S1024x1 .f32 × Vec F S1024x1 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt =
      (sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
       sout0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt =
      (sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
       sout0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt =
      (out0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
       sout0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch column between points -/

def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) :
    PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the launch finds them; after the body each input's buffer at its block, window 2's at the
    accumulation's first component; the invariant the scratch column; nothing owed; the one array behind the two
    input windows held in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in;
    the invariant hands the body the scratch column the point before left (anything at the very first point, and
    at every first-case point the column is cleared whatever it held) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 32 := lt_of_lt_of_eq t.isLt (show cfg0.N = 32 from N_0)
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A; (try dsimp only)
    have hrun := fun xi2 K => (kernelRun0_A (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).2 xi2 Set.univ K
    by_cases hz : t.val = 0
    · rw [PhiS_castSucc m c t, PhiS_zero m c _ _ hz]
      iintro ⟨HS0, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C sout0_C; (try dsimp only)
      rw [PhiS_castSucc m c t, PhiS_pos m c _ _ hz]
      iintro ⟨HS0, Ho, ⟨%d0, H0⟩, ⟨%d1, H1⟩, ⟨%d2, H2⟩⟩
      iapply ((kernelRun0_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B; (try dsimp only)
      rw [PhiS_castSucc m c t, PhiS_pos m c _ _ hz]
      iintro ⟨HS0, Ho, ⟨%d0, H0⟩, ⟨%d1, H1⟩, ⟨%d2, H2⟩⟩
      iapply ((kernelRun0_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scratch at anything) is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest_eq]

/-- After the last point the invariant gives it back, the column's contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_eq]
  iintro HS0
  iexists _; iexact HS0

end Cert.KernelIdeal.Frame

end
-- ==== Proof.KILaunch.lean ====
/-
  The launch of the kernel: the deal of the one buffer behind the two input windows, and the run of the entry point.

  Windows 0 and 1 read ONE array, z; window 2 writes the array of sums.  So the buffers behind the windows' arrays
  are two, z's and the sums', while the windows are three.  At the region's entry the full share of z's buffer is
  dealt in halves, the left to window 0 and the right to window 1; the sums' buffer goes whole to window 2.  An input
  window's array is never written, so at the region's exit both halves still hold z as the region found it and are
  joined into the full share again; the sums' buffer holds what the write-backs made of it.  The core's buffers at
  the exit are therefore the entry contents with the sums' buffer replaced.  The host operations after the region
  write neither array, so the same deal holds after them.
-/
import proofs.«168158_j18708877541981_2_alg».proof.Proof.KIFrame
import proofs.«168158_j18708877541981_2_alg».proof.Proof.LibSharedTail

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The core's buffers at the region's exit -/

/-- The core's buffers when the region is left: as it was entered, but the buffer of sums at what the write-backs
    of all the points made of it. -/
def Wx (c : Dev nD) : Valuation τ sig (Elt F) :=
  Function.update (V0 m c) (Proc.devRef .tc main_v17) ((dats m 0 c).arrAt 2 cfg0.N)

theorem Wx_v17 (c : Dev nD) : Wx m c (Proc.devRef .tc main_v17) = (dats m 0 c).arrAt 2 cfg0.N := by
  unfold Wx; exact Function.update_self _ _ _

theorem Wx_of_ne (c : Dev nD) (b : Ref sig .tc) (h : b ≠ main_v17) :
    Wx m c (Proc.devRef .tc b) = V0 m c (Proc.devRef .tc b) := by
  unfold Wx; exact Function.update_of_ne (StableHlo.devRef_ne_of_ne h) _ _

/-! ## The buffers behind the arrays, and the arrays -/

/-- The buffers behind the three windows' arrays are two: z's and the sums'. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v16) ↦{fullShare} Vv main_v16) ∗ (((c : Thread nD τ).loc main_v17) ↦{fullShare} Vv main_v17)) := by
  unfold Pipeline.arrBufs
  rw [show Finset.univ.image (Pipeline.arrRef spec0) = {main_v16, main_v17} from by decide,
    bigSep_insert (by decide), bigSep_singleton]
  rfl

/-- The windows' arrays: z's buffer at the left half for window 0 and at the right half for window 1, the sums'
    buffer whole for window 2. -/
theorem arrays_eq (c : Dev nD) (Fn : (w : Fin cfg0.W) → Buf (Elt F) ((cfg0.win w).arr.view.loc (c : Thread nD τ))) :
    ((dats m 0 c).arrays Fn : sProp 𝕄)
      = iprop((((c : Thread nD τ).loc main_v16) ↦{fullShare.left} Fn 0) ∗ (((c : Thread nD τ).loc main_v16) ↦{fullShare.right} Fn 1)
          ∗ (((c : Thread nD τ).loc main_v17) ↦{fullShare} Fn 2)) := by
  unfold Dat.arrays
  rw [bigSep_W0, (arr_whole0 0).set_eq_univ, (arr_whole0 2).set_eq_univ]
  rfl

/-- An input window's array is never written: window 0's holds z as the region found it, at every point. -/
theorem arrAt_0 (c : Dev nD) (n : ℕ) : (dats m 0 c).arrAt 0 n = V m c main_v16 := by
  rw [(dats m 0 c).arrAt_in 0 rfl n, A_eq]

/-- And so does window 1's. -/
theorem arrAt_1 (c : Dev nD) (n : ℕ) : (dats m 0 c).arrAt 1 n = V m c main_v16 := by
  rw [(dats m 0 c).arrAt_in 1 rfl n, A_eq]

/-- Before any write-back the buffer of sums holds what the region found there. -/
theorem arrAt_2_zero (c : Dev nD) : (dats m 0 c).arrAt 2 0 = V m c main_v17 := by
  rw [show (dats m 0 c).arrAt 2 0 = (dats m 0 c).A 2 from rfl, A_eq]

/-- The arrays after the write-backs of the points below n: the two halves of z's buffer at z, the sums' buffer at
    what those write-backs made of it. -/
theorem arrays_at (c : Dev nD) (n : ℕ) :
    ((dats m 0 c).arrays ((dats m 0 c).arrAt · n) : sProp 𝕄)
      = iprop((((c : Thread nD τ).loc main_v16) ↦{fullShare.left} V m c main_v16) ∗ (((c : Thread nD τ).loc main_v16) ↦{fullShare.right} V m c main_v16)
          ∗ (((c : Thread nD τ).loc main_v17) ↦{fullShare} (dats m 0 c).arrAt 2 n)) := by
  rw [arrays_eq]
  beta_reduce
  rw [arrAt_0, arrAt_1]

/-! ## The deal of z's buffer between the two input windows -/

/-- A buffer held whole at the full share is the buffer held at the left half and at the right half, -/
theorem halves_split (ℓ : Loc nD τ sig) (f : ℓ.ty.Contents (Elt F)) :
    (ℓ ↦{fullShare} f : sProp 𝕄) ⊢ iprop((ℓ ↦{fullShare.left} f) ∗ ℓ ↦{fullShare.right} f) :=
  (pointsTo_share (PosShare.mem_left_op_right fullShare)).1

/-- and the two halves at the same contents are the full share again. -/
theorem halves_join (ℓ : Loc nD τ sig) (f : ℓ.ty.Contents (Elt F)) :
    iprop((ℓ ↦{fullShare.left} f) ∗ ℓ ↦{fullShare.right} f) ⊢ (ℓ ↦{fullShare} f : sProp 𝕄) :=
  (pointsTo_share (PosShare.mem_left_op_right fullShare)).2

/-- Off the arrays the exit contents are the entry contents. -/
theorem hWrest (c : Dev nD) (b : Ref sig .tc) (h : ∀ w, Pipeline.arrRef (cfgs 0).spec w ≠ b) :
    Wx m c (Proc.devRef .tc b) = V0 m c (Proc.devRef .tc b) :=
  Wx_of_ne m c b fun e => h 2 (by subst e; rfl)

/-- At entry: z's buffer is dealt in halves to windows 0 and 1, the sums' buffer goes whole to window 2. -/
theorem hsplit (c : Dev nD) :
    (Pipeline.arrBufs (Ix := Unit) (Name := ℕ) (U := UR sig nD τ) (Lvl := ℕ) (cfgs 0).spec c (fun b => V0 m c (Proc.devRef .tc b)) : sProp 𝕄)
      ⊢ (dats m 0 c).arrays ((dats m 0 c).arrAt · 0) := by
  rw [arrBufs_eq, arrays_at, arrAt_2_zero]
  iintro ⟨H16, H17⟩
  ihave H := (halves_split _ _) $$ H16
  icases H with ⟨Hl, Hr⟩
  isplitl [Hl]; · iexact Hl
  isplitl [Hr]; · iexact Hr
  iexact H17

/-- At the exit: the two halves, still at z, are joined; the sums' buffer is at what the write-backs made of it. -/
theorem hjoin (c : Dev nD) :
    (dats m 0 c).arrays ((dats m 0 c).arrAt · (cfgs 0).N)
      ⊢ (Pipeline.arrBufs (Ix := Unit) (Name := ℕ) (U := UR sig nD τ) (Lvl := ℕ) (cfgs 0).spec c (fun b => Wx m c (Proc.devRef .tc b)) : sProp 𝕄) := by
  rw [arrBufs_eq, arrays_at]
  beta_reduce
  rw [Wx_of_ne m c main_v16 (by decide), Wx_v17]
  iintro ⟨Hl, Hr, H17⟩
  isplitr [H17]
  · iapply (halves_join _ _)
    isplitl [Hl]; · iexact Hl
    iexact Hr
  · iexact H17

/-- After the host operations, which write neither array: the same deal again. -/
theorem hdeal (c : Dev nD) :
    (Pipeline.arrBufs (Ix := Unit) (Name := ℕ) (U := UR sig nD τ) (Lvl := ℕ) (cfgs 0).spec c (fun b => Wx m c (Proc.devRef .tc b)) : sProp 𝕄)
      ⊢ (dats m 0 c).arrays ((dats m 0 c).arrAt · (cfgs 0).N) := by
  rw [arrBufs_eq, arrays_at]
  beta_reduce
  rw [Wx_of_ne m c main_v16 (by decide), Wx_v17]
  iintro ⟨H16, H17⟩
  ihave H := (halves_split _ _) $$ H16
  icases H with ⟨Hl, Hr⟩
  isplitl [Hl]; · iexact Hl
  isplitl [Hr]; · iexact Hr
  iexact H17

/-! ## The run -/

set_option backward.isDefEq.respectTransparency.types false in
/-- THE RUN of the entry point: from any memory with zero counters every weakly fair execution terminates, nothing
    faulting; every window's array ends at what the proof data compute for it, and every other unscoped buffer at
    what the host operations after the region compute from the exit contents. -/
theorem run_main :
    θ_run defs (onTc (τ := τ) (main (F := F))) (s₀ m ρ)
      (fun r => ∀ c : Dev nD,
        (∀ w, r.2.mem (((cfgs 0).spec w).arr.view.loc (c.tc : Thread nD τ)) = (dats m 0 c).arrAt w (cfgs 0).N)
        ∧ ∀ b ∈ Pipeline.restRefs sig (cfgs 0).spec,
            r.2.mem ((c.tc : Thread nD τ).loc b) = StableHlo.after (List.flatten [hostOps1]) (Wx m c) (Proc.devRef .tc b)) :=
  Pipeline.θ_run_frame_sharedArrays_around_track cfgs (dats m) 0 defs₀ Variants.none cellOf_inj winFacts₀0 block_pos0 arr_whole0 stage_whole0
    m ρ main (fun c => (body_obligation m c).loose) (fun _ _ => rfl) (V0 m) [hostOps1] sfx_sub sfx_fresh sfx_keeps (hmain m Variants.none)
    (hsplit m) (Wx m) (hWrest m) (hjoin m) (hdeal m) (hin m) (hout m)

end Cert.KernelIdeal.Frame

end
-- ==== Proof.KIArgs.lean ====
/-
  The argument arrays through the run.

  No host operation, before or after the launch, writes an argument array, and no window of the launch is on one:
  so both arrays are, when the launch is entered and when the run ends, what they were at the start.  With the
  launch's run this is the frame: the program ends, nothing faulting, its arguments unchanged.
-/
import proofs.«168158_j18708877541981_2_alg».proof.Proof.KILaunch

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_arg0 (c : Dev nD) : V m c main_arg0 = m ((c : Thread nD τ).loc main_arg0) := by
  show StableHlo.after hostOps0 (fun b => m (c, b)) (Proc.devRef .tc main_arg0) = _
  after_results
  try rfl

theorem V_arg1 (c : Dev nD) : V m c main_arg1 = m ((c : Thread nD τ).loc main_arg1) := by
  show StableHlo.after hostOps0 (fun b => m (c, b)) (Proc.devRef .tc main_arg1) = _
  after_results
  try rfl

theorem tail_arg0 (c : Dev nD) :
    StableHlo.after (List.flatten [hostOps1]) (Wx m c) (Proc.devRef .tc main_arg0) = m ((c : Thread nD τ).loc main_arg0) := by
  show StableHlo.after hostOps1 (Wx m c) (Proc.devRef .tc main_arg0) = _
  after_results
  exact (Wx_of_ne m c main_arg0 (by decide)).trans (V_arg0 m c)

theorem tail_arg1 (c : Dev nD) :
    StableHlo.after (List.flatten [hostOps1]) (Wx m c) (Proc.devRef .tc main_arg1) = m ((c : Thread nD τ).loc main_arg1) := by
  show StableHlo.after hostOps1 (Wx m c) (Proc.devRef .tc main_arg1) = _
  after_results
  exact (Wx_of_ne m c main_arg1 (by decide)).trans (V_arg1 m c)

theorem arg0_rest : main_arg0 ∈ Pipeline.restRefs sig (cfgs 0).spec := by decide +kernel
theorem arg1_rest : main_arg1 ∈ Pipeline.restRefs sig (cfgs 0).spec := by decide +kernel

/-- The frame: the run ends, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (tail_arg0 m c),
      ((h c).2 main_arg1 arg1_rest).trans (tail_arg1 m c)⟩) (run_main m ρ)

end Cert.KernelIdeal.Frame

end
-- ==== Proof.Terms.lean ====
/-
  The host arithmetic of the kernel's entry point, as pure terms of the argument arrays.

  Around its one kernel launch the entry point normalises the rows of each argument (a row divided by the larger of
  its Euclidean norm and 1e-12), stacks the two normalised matrices into `z` (8192 rows of 512), and afterwards turns
  the launch's column `kout` (for every row `n`, the sum over ALL rows `m` of exp(2 <z_n, z_m>)) into the loss:
  the self term exp(2 <z_n, z_n>) is subtracted, the logarithm taken, minus twice the positive pair's inner
  product added, and the 8192 terms averaged.  These definitions spell exactly the operations the program prints,
  in its order, so that what the run leaves in a buffer is one of them by unfolding.
-/
import proofs.«168158_j18708877541981_2_alg».proof.Proof.Gen.KernelIdeal

noncomputable section

namespace Cert.KernelIdeal.Terms

open Cert.KernelIdeal Cert.KernelIdeal.Gen Idealize.ShloMosaic

variable {F : FTy → Type} [FloatOps F]

/-- A matrix of 4096 rows with every row divided by max(‖row‖, 1e-12). -/
def rowNorm (a : FVec F S4096x512 .f32) : FVec F S4096x512 .f32 :=
  Host.divf a (broadcastInDim S4096x512 ![0, 1] bcast_S4096x1_S4096x512_0_1
    (maximumf (Host.sqrt (broadcastInDim S4096x1 ![0] bcast_S4096_S4096x1_0
        (Host.reduceAdd (mulf a a) (constant S_ .f32 0x00000000#32) reducesTo_S4096x512_S4096_d1 h_S_)))
      (broadcastInDim S4096x1 ![] bcast_S_S4096x1 (constant S_ .f32 0x2B8CBCCC#32))))

/-- The two normalised matrices stacked: rows 0..4095 from the first argument, 4096..8191 from the second. -/
def stack (zi zj : FVec F S4096x512 .f32) : FVec F S8192x512 .f32 :=
  concatenate S8192x512 0 [⟨S4096x512, zi⟩, ⟨S4096x512, zj⟩] concatenates_S4096x512_S4096x512_S8192x512_d0

/-- `z`: the stacked normalised rows of the two arguments. -/
def zOf (a0 a1 : FVec F S4096x512 .f32) : FVec F S8192x512 .f32 := stack (rowNorm a0) (rowNorm a1)

/-- The loss from the normalised halves `zi`, `zj`, their stack `z` and the launch's column `kout`. -/
def lossOf (zi zj : FVec F S4096x512 .f32) (z : FVec F S8192x512 .f32) (kout : FVec F S8192x1 .f32) : FVec F S_ .f32 :=
  Host.divf
    (Host.reduceAdd
      (addf
        (Host.negf (mulf
          (concatenate S8192 0
            [⟨S4096, Host.reduceAdd (mulf zi zj) (constant S_ .f32 0x00000000#32) reducesTo_S4096x512_S4096_d1 h_S_⟩,
             ⟨S4096, Host.reduceAdd (mulf zi zj) (constant S_ .f32 0x00000000#32) reducesTo_S4096x512_S4096_d1 h_S_⟩]
            concatenates_S4096_S4096_S8192_d0)
          (broadcastInDim S8192 ![] bcast_S_S8192 (constant S_ .f32 0x40000000#32))))
        (Host.log (subf (shapeCast S8192 kout shapeCasts_S8192x1_S8192)
          (Host.exp (mulf
            (Host.reduceAdd
              (mulf (extf .f32 (truncf .bf16 z bitsLt_bf16_f32) bitsLt_bf16_f32)
                    (extf .f32 (truncf .bf16 z bitsLt_bf16_f32) bitsLt_bf16_f32))
              (constant S_ .f32 0x00000000#32) reducesTo_S8192x512_S8192_d1 h_S_)
            (broadcastInDim S8192 ![] bcast_S_S8192 (constant S_ .f32 0x40000000#32)))))))
      (constant S_ .f32 0x00000000#32) reducesTo_S8192_S_d0 h_S_)
    (constant S_ .f32 0x46000000#32)

end Cert.KernelIdeal.Terms

end
-- ==== Proof.KIHost.lean ====
/-
  The host operations around the launch, read back as terms of the argument arrays.

  Before the launch the host normalises the two arguments' rows and stacks them: the buffer the launch's input
  windows read holds z.  After the launch, from the buffers as the launch leaves them (the result column in its
  buffer, every other buffer as at entry), the later operations compute the loss in the last buffer and write
  neither argument.  So the whole run ends with the loss of (z, the launch's column) in the result buffer and
  the arguments as they were.
-/
import proofs.«168158_j18708877541981_2_alg».proof.Proof.KIArgs
import proofs.«168158_j18708877541981_2_alg».proof.Proof.Terms

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Terms

theorem V_v7 (c : Dev nD) : V m c main_v7 = rowNorm (F := F) (m ((c : Thread nD τ).loc main_arg0)) := by
  show StableHlo.after hostOps0 (fun b => m (c, b)) (Proc.devRef .tc main_v7) = _
  after_results
  try rfl

theorem V_v15 (c : Dev nD) : V m c main_v15 = rowNorm (F := F) (m ((c : Thread nD τ).loc main_arg1)) := by
  show StableHlo.after hostOps0 (fun b => m (c, b)) (Proc.devRef .tc main_v15) = _
  after_results
  try rfl

/-- The launch's input windows read z. -/
theorem V_v16 (c : Dev nD) : V m c main_v16
    = zOf (F := F) (m ((c : Thread nD τ).loc main_arg0)) (m ((c : Thread nD τ).loc main_arg1)) := by
  show StableHlo.after hostOps0 (fun b => m (c, b)) (Proc.devRef .tc main_v16) = _
  after_results
  try rfl

set_option maxRecDepth 65536 in
set_option maxHeartbeats 4000000 in
/-- The result buffer ends at the loss of z and the launch's column. -/
theorem tail_v36 (c : Dev nD) :
    StableHlo.after (List.flatten [hostOps1]) (Wx m c) (Proc.devRef .tc main_v36)
      = lossOf (F := F) (rowNorm (m ((c : Thread nD τ).loc main_arg0))) (rowNorm (m ((c : Thread nD τ).loc main_arg1)))
          (zOf (m ((c : Thread nD τ).loc main_arg0)) (m ((c : Thread nD τ).loc main_arg1))) ((dats m 0 c).arrAt 2 cfg0.N) := by
  show StableHlo.after hostOps1 (Wx m c) (Proc.devRef .tc main_v36) = _
  after_results
  rw [Wx_v17 m c, Wx_of_ne m c main_v16 (by decide), Wx_of_ne m c main_v7 (by decide), Wx_of_ne m c main_v15 (by decide)]
  rw [show V0 m c (Proc.devRef .tc main_v16) = zOf (F := F) (m ((c : Thread nD τ).loc main_arg0)) (m ((c : Thread nD τ).loc main_arg1)) from V_v16 m c,
    show V0 m c (Proc.devRef .tc main_v7) = rowNorm (F := F) (m ((c : Thread nD τ).loc main_arg0)) from V_v7 m c,
    show V0 m c (Proc.devRef .tc main_v15) = rowNorm (F := F) (m ((c : Thread nD τ).loc main_arg1)) from V_v15 m c]
  rfl

theorem v36_rest : main_v36 ∈ Pipeline.restRefs sig (cfgs 0).spec := by decide +kernel

/-- The whole run: it ends, nothing faulting, with the result buffer at the loss of z and the launch's column, and the
    argument arrays as they were. -/
theorem run_loss : θ_run defs (onTc (τ := τ) (main (F := F))) ⟨m, fun _ => 0, ρ⟩ (fun r => ∀ c : Dev nD,
      r.2.mem ((c.tc : Thread nD τ).loc main_v36)
        = lossOf (F := F) (rowNorm (m ((c : Thread nD τ).loc main_arg0))) (rowNorm (m ((c : Thread nD τ).loc main_arg1)))
            (zOf (m ((c : Thread nD τ).loc main_arg0)) (m ((c : Thread nD τ).loc main_arg1))) ((dats m 0 c).arrAt 2 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v36 v36_rest).trans (tail_v36 m c),
      ((h c).2 main_arg0 arg0_rest).trans (tail_arg0 m c),
      ((h c).2 main_arg1 arg1_rest).trans (tail_arg1 m c)⟩) (run_main m ρ)

end Cert.KernelIdeal.Frame

end
-- ==== Proof.KIPieces.lean ====
/-
  What each case's stores leave, as the body's arithmetic of the blocks.

  Every store of the body covers its whole buffer, so what a buffer ends with is the last store's value; and a load
  of a whole buffer reads the buffer's contents.  Hence: after a first-case point the scratch column is the key
  block's sums added to the zero column; after a middle- or last-case point it is the key block's sums added to the
  column the point before left; and in the last case window 2's buffer ends holding that same column.
-/
import proofs.«168158_j18708877541981_2_alg».proof.Proof.KIFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by
  funext a; match a with | ⟨0, _⟩ => rfl | ⟨1, _⟩ => rfl

theorem sout0_A_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x512 .f32) (x1 : Vec F S2048x512 .f32) :
    sout0_A (F := F) c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero hz2]
  simp only [View.readAt_eq_ld, harg2.read_unread, harg3.read_unread, harg5.read_unread, View.ld_unit_zero (S := S1024x512) hz2, View.ld_unit_zero (S := S2048x512) hz2, View.ld_unit_zero (S := S1024x1) hz2, View.readCov_unit_zero (S := S1024x1) _ hz2]

theorem sout0_B_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x512 .f32) (x1 : Vec F S2048x512 .f32) (xs0 : Vec F S1024x1 .f32) :
    sout0_B (F := F) c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1024x512) hz2, View.ld_unit_zero (S := S2048x512) hz2, View.ld_unit_zero (S := S1024x1) hz2, View.readCov_unit_zero (S := S1024x1) _ hz2]

theorem sout0_C_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) :
    sout0_C (F := F) c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1024x512) hz2, View.ld_unit_zero (S := S2048x512) hz2, View.ld_unit_zero (S := S1024x1) hz2, View.readCov_unit_zero (S := S1024x1) _ hz2]

theorem out0_C_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x512 .f32) (x1 : Vec F S2048x512 .f32) (xs0 : Vec F S1024x1 .f32) :
    out0_C (F := F) c i arg2 harg2 arg3 harg3 arg4 harg4 arg5 harg5 hc0 hc1 x0 x1 xs0 = k0_pay2 x0 x1 xs0 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1024x512) hz2, View.ld_unit_zero (S := S2048x512) hz2, View.ld_unit_zero (S := S1024x1) hz2, View.readCov_unit_zero (S := S1024x1) _ hz2]

end Cert.KernelIdeal.Frame

end
-- ==== Proof.KIScratch.lean ====
/-
  The accumulation in terms of the body's arithmetic, and where the blocks sit in z.

  After point t the scratch column is the body's arithmetic of the query block and the key block of t, applied to
  the zero column when t opens a query block (t % 4 = 0) and to the column point t - 1 left otherwise; at the last
  key block window 2's buffer holds the same column.  Point t is query block t / 4 and key block t % 4: window 0's
  block is rows 1024 (t / 4) + p of z, window 1's is rows 2048 (t % 4) + l, window 2's is rows 1024 (t / 4) + p of
  the result column.
-/
import proofs.«168158_j18708877541981_2_alg».proof.Proof.KIPieces
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem scr_first (c : Dev nD) (t : Fin cfg0.N) (h0 : t.val % 4 = 0) :
    (outsAt0 m c t.val t.isLt).2 = k0_pay2 (iblk m c 0 t) (iblk m c 1 t) (k0_pay1 (F := F)) := by
  have h1 : ¬t.val % 4 = 3 := by omega
  rw [outsAt0_A m c t h0 h1]
  dsimp only
  exact sout0_A_eq (F := F) c _ _ _ _ _ _ _ _ _ _ _ _ _

theorem scr_next (c : Dev nD) (t : Fin cfg0.N) (h0 : ¬t.val % 4 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 4 = 3
  · rw [outsAt0_C m c t h0 h1]
    dsimp only
    exact sout0_C_eq (F := F) c _ _ _ _ _ _ _ _ _ _ _ _ _ _
  · rw [outsAt0_B m c t h0 h1]
    dsimp only
    exact sout0_B_eq (F := F) c _ _ _ _ _ _ _ _ _ _ _ _ _ _

theorem out_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (out0_C_eq (F := F) c _ _ _ _ _ _ _ _ _ _ _ _ _ _).trans (sout0_C_eq (F := F) c _ _ _ _ _ _ _ _ _ _ _ _ _ _).symm

/-- The printed index maps, decided over the grid. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Row p, lane d of the query block of point t is row 1024 (t / 4) + p of z. -/
theorem iblk0_apply (c : Dev nD) (t : Fin cfg0.N) (p : Fin 1024) (d : Fin 512) (hr : 1024 * (t.val / 4) + p.val < 8192) :
    (iblk m c 0 t : S1024x512.Idx → Elt F .f32) (ix2 p d)
      = (V m c main_v16 : S8192x512.Idx → Elt F .f32) (ix2 ⟨1024 * (t.val / 4) + p.val, hr⟩ d) := by
  obtain ⟨e0, e1, -, -, -, -⟩ := idx_facts t
  show (V m c main_v16 : S8192x512.Idx → Elt F .f32) (((cfg0.win 0).blk t).view.emb (ix2 p d)) = _
  refine congrArg _ ?_
  funext a; apply Fin.ext
  match a with
  | ⟨0, _⟩ => show win0_0.index t (0 : Fin 2) * 1024 + 1 * p.val = 1024 * (t.val / 4) + p.val; omega
  | ⟨1, _⟩ => show win0_0.index t (1 : Fin 2) * 512 + 1 * d.val = d.val; omega

/-- Row l, lane d of the key block of point t is row (t % 4) 2048 + l of z. -/
theorem iblk1_apply (c : Dev nD) (t : Fin cfg0.N) (l : Fin 2048) (d : Fin 512) (hr : t.val % 4 * 2048 + l.val < 8192) :
    (iblk m c 1 t : S2048x512.Idx → Elt F .f32) (ix2 l d)
      = (V m c main_v16 : S8192x512.Idx → Elt F .f32) (ix2 ⟨t.val % 4 * 2048 + l.val, hr⟩ d) := by
  obtain ⟨-, -, e0, e1, -, -⟩ := idx_facts t
  show (V m c main_v16 : S8192x512.Idx → Elt F .f32) (((cfg0.win 1).blk t).view.emb (ix2 l d)) = _
  refine congrArg _ ?_
  funext a; apply Fin.ext
  match a with
  | ⟨0, _⟩ => show win0_1.index t (0 : Fin 2) * 2048 + 1 * l.val = t.val % 4 * 2048 + l.val; omega
  | ⟨1, _⟩ => show win0_1.index t (1 : Fin 2) * 512 + 1 * d.val = d.val; omega

end Cert.KernelIdeal.Frame

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibKeepdimsSum.lean ====
/-
  A sum along one axis of a matrix, kept with its unit axis, read at an entry at the ideal values. Inside a kernel
  `jnp.sum(x, axis, keepdims=True)` is a `vector.multi_reduction <add>` over the axis followed by a `vector.shape_cast`
  that puts the unit axis back. Two forms: the row sums of an [a, b] matrix kept as the column [a, 1], and the sum of an
  [a, 1] column kept as the one-entry array [1, 1]. On the extended reals the reduction is the plain finite sum over the
  reduced coordinate, so each reads as a sum of entries of the operand.
-/
import Idealize.ShloMosaic.Lib.Pipeline.Value
import Idealize.ShloMosaic.Lib.ValueIdx
import Idealize.ShloMosaic.PureOps.Ideal.Laws
import proofs.«168158_j18708877541981_2_alg».proof.Proof.LibIdx

noncomputable section

namespace Cert.LibKeepdimsSum

open Idealize.ShloMosaic Idealize.ShloMosaic.ValueIdx
open scoped BigOperators

/-- The row sums of an [a, b] matrix, kept as a column: entry (p, u) of the column is the sum over the lanes k of the
    matrix at (p, k). -/
theorem rowSums_keep {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ k : Fin b, v (ix2 p k) := by
  refine (Cert.LibIdx.shapeCast_a_a1_apply _ hc p u).trans ?_
  refine (Ideal.multiReduction_add_single v _ h hφ hacc (ix1 p)).trans ?_
  refine Finset.sum_congr rfl fun k _ => congrArg v ?_
  funext d
  apply Fin.ext
  match d with
  | ⟨0, _⟩ => rfl
  | ⟨1, _⟩ => rfl

/-- The sum of an [a, 1] column, kept as a [1, 1] array: its one entry is the sum over the rows r of the column at
    (r, 0). -/
theorem colSum_keep {a : ℕ} (w : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) (u u' : Fin 1) :
    shapeCast ⟨2, ![1, 1]⟩ (multiReduction .add [0] ⟨1, ![1]⟩ w 0x00000000#32 h hφ hacc) hc (ix2 u u')
      = ∑ r : Fin a, w (ix2 r (0 : Fin 1)) := by
  refine (Cert.LibIdx.shapeCast_a_a1_apply _ hc u u').trans ?_
  refine (Ideal.multiReduction_add_single w _ h hφ hacc (ix1 u)).trans ?_
  refine Finset.sum_congr rfl fun r _ => congrArg w ?_
  funext d
  apply Fin.ext
  match d with
  | ⟨0, _⟩ => rfl
  | ⟨1, _⟩ =>
    have hu : u.val = 0 := by omega
    show u.val = 0
    exact hu

end Cert.LibKeepdimsSum

end
-- ==== Proof.Payload.lean ====
/-
  The arithmetic of the kernel body, read at an entry, on the extended reals.

  The body holds a column of 1024 running sums, one per query row. Its first payload is the zero column that starts the
  sums. Its second payload adds to the running column, for each query row p, the sum over the 2048 key rows l of the
  block of exp(2 * <q_p, k_l>), where <q_p, k_l> is the inner product over the 512 features. On the extended reals the
  narrowing of the operands before the product is the identity, the product into the zero accumulator is the plain
  finite sum over the contracted axis, and the reduction along the key axis is the plain finite sum over the keys.
-/
import proofs.«168158_j18708877541981_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«168158_j18708877541981_2_alg».proof.Proof.LibContract1
import proofs.«168158_j18708877541981_2_alg».proof.Proof.LibKeepdimsSum
import proofs.«168158_j18708877541981_2_alg».proof.Proof.LibIdx

noncomputable section

namespace Cert.Payload

open Cert.KernelIdeal Cert.KernelIdeal.Gen Idealize.ShloMosaic Idealize.ShloMosaic.ValueIdx
open scoped BigOperators

/-- The starting column is zero at every entry. -/
theorem pay1_apply (y : S1024x1.Idx) : k0_pay1 (F := Ideal) y = 0 := by
  unfold k0_pay1
  refine (congrFun (shapeCast_self _ _) y).trans ?_
  exact Ideal.ofBits_zero_f32

/-- The query operand's kept axis carries the result entry's first coordinate. -/
theorem lhs_axis0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl

/-- The key operand's kept axis carries the result entry's second coordinate. -/
theorem rhs_axis0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl

/-- The query-by-key product's dimension record sends a result entry (p, l) and the contraction coordinate k to the
    query operand's entry (p, k). -/
theorem lhs_at (p : Fin 1024) (l : Fin 2048) (k : Fin 512) :
    dot_S1024x512_S2048x512_S1024x2048_1_1_0_0_n_n.lhsIdx (ix2 p l)
      ((contrEquiv1 dot_S1024x512_S2048x512_S1024x2048_1_1_0_0_n_n 512 rfl rfl).symm k) = ix2 p k := by
  have hk := contrEquiv1_symm_val dot_S1024x512_S2048x512_S1024x2048_1_1_0_0_n_n 512 rfl rfl k
  funext a
  apply Fin.ext
  match a with
  | ⟨0, _⟩ => exact lhs_axis0 _ _
  | ⟨1, _⟩ =>
    exact (dot_S1024x512_S2048x512_S1024x2048_1_1_0_0_n_n.lhsIdx_val_of_single rfl (ix2 p l) _).trans hk

/-- ... and to the key operand's entry (l, k). -/
theorem rhs_at (p : Fin 1024) (l : Fin 2048) (k : Fin 512) :
    dot_S1024x512_S2048x512_S1024x2048_1_1_0_0_n_n.rhsIdx (ix2 p l)
      ((contrEquiv1 dot_S1024x512_S2048x512_S1024x2048_1_1_0_0_n_n 512 rfl rfl).symm k) = ix2 l k := by
  have hk := contrEquiv1_symm_val dot_S1024x512_S2048x512_S1024x2048_1_1_0_0_n_n 512 rfl rfl k
  funext a
  apply Fin.ext
  match a with
  | ⟨0, _⟩ => exact rhs_axis0 _ _
  | ⟨1, _⟩ =>
    exact (dot_S1024x512_S2048x512_S1024x2048_1_1_0_0_n_n.rhsIdx_val_of_single rfl (ix2 p l) _).trans hk

/-- The body's update of the running column at row p: the old entry plus the sum over the block's 2048 key rows of
    exp(2 * <q_p, k_l>). -/
theorem pay2_apply (v3 : Vec Ideal S1024x512 .f32) (v6 : Vec Ideal S2048x512 .f32) (v13 : Vec Ideal S1024x1 .f32)
    (p : Fin 1024) :
    k0_pay2 (F := Ideal) v3 v6 v13 (ix2 p 0)
      = v13 (ix2 p 0) + ∑ l : Fin 2048,
          Ideal.exp ((∑ d : Fin 512, v3 (ix2 p d) * v6 (ix2 l d)) * Ideal.ofBits .f32 0x40000000#32) := by
  unfold k0_pay2
  refine (congrFun (shapeCast_self _ _) (ix2 p 0)).trans ?_
  refine (addf_apply _ _ _).trans ?_
  refine congrArg (v13 (ix2 p 0) + ·) ?_
  refine (Cert.LibKeepdimsSum.rowSums_keep _ _ _ _ _ p 0).trans ?_
  refine Finset.sum_congr rfl fun l _ => ?_
  show Ideal.exp (_ * Ideal.ofBits .f32 0x40000000#32) = _
  refine congrArg (fun t => Ideal.exp (t * Ideal.ofBits .f32 0x40000000#32)) ?_
  refine (Cert.LibContract1.matmul_zero_single dot_S1024x512_S2048x512_S1024x2048_1_1_0_0_n_n 512 rfl rfl _ _
    (ix2 p l) (fun k => ix2 p k) (fun k => ix2 l k) (lhs_at p l) (rhs_at p l)).trans ?_
  refine Finset.sum_congr rfl fun d _ => ?_
  rw [shapeCast_self, shapeCast_self]
  rfl

end Cert.Payload

end
-- ==== Proof.LibTileSum.lean ====
/- Sums over a range cut into equal tiles.

   A sum over the first `a·b` naturals is the sum over `a` tiles of `b` consecutive naturals each; cutting each tile
   again gives the three-level form a tiled, lane-preserving accumulation produces: tile `j`, row `k` inside the tile,
   lane `l` inside the row, at position `j·(b·c) + k·c + l` — in whatever order the three sums are taken, since the
   value monoid is commutative. -/
import Mathlib.Algebra.BigOperators.Intervals
import Mathlib.Algebra.BigOperators.Fin

namespace Cert.TileSum

open Finset

/-- A sum over `range (a * b)` is the sum over `a` consecutive tiles of length `b`. -/
theorem sum_range_mul {M : Type*} [AddCommMonoid M] (g : ℕ → M) (a b : ℕ) :
    ∑ n ∈ range (a * b), g n = ∑ i ∈ range a, ∑ j ∈ range b, g (i * b + j) := by
  induction a with
  | zero => simp
  | succ a ih => rw [Nat.succ_mul, sum_range_add, ih, sum_range_succ]

/-- Three levels, the innermost (lane) sum taken OUTERMOST: the sum over lanes `l`, tiles `j` and rows `k` of the
    value at `j·(b·c) + k·c + l` is the sum over `range (a·(b·c))`. -/
theorem sum_lanes_tiles_rows {M : Type*} [AddCommMonoid M] (g : ℕ → M) (a b c : ℕ) :
    ∑ l ∈ range c, ∑ j ∈ range a, ∑ k ∈ range b, g (j * (b * c) + k * c + l)
      = ∑ n ∈ range (a * (b * c)), g n := by
  rw [sum_range_mul g a (b * c), sum_comm]
  refine sum_congr rfl fun j _ => ?_
  rw [sum_range_mul (fun n => g (j * (b * c) + n)) b c, sum_comm]
  refine sum_congr rfl fun k _ => sum_congr rfl fun l _ => ?_
  rw [Nat.add_assoc]

end Cert.TileSum
-- ==== Proof.KIColumn.lean ====
/-
  The launch's result column, on the extended reals.

  Write e(n, s) = exp(2 <z_n, z_s>) for rows n, s of z.  At a point of query block q and key block k the body adds to
  entry p of the scratch column the sum over the 2048 rows l of the key block of e(1024 q + p, 2048 k + l).  The
  column is zero when the query block opens, so after key block k it holds the sum over key blocks j <= k, and after
  key block 3 the sum of e(n, s) over ALL 8192 rows s (four tiles of 2048): that is what the last-case point writes
  back into rows 1024 q .. 1024 q + 1023 of the result.  The eight query blocks tile the result, so the launch ends
  with entry n of the result equal to the sum over s of e(n, s).
-/
import proofs.«168158_j18708877541981_2_alg».proof.Proof.KIScratch
import proofs.«168158_j18708877541981_2_alg».proof.Proof.Payload
import proofs.«168158_j18708877541981_2_alg».proof.Proof.LibTileSum
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-- z as the launch finds it. -/
def zAll (c : Dev nD) : S8192x512.Idx → EReal := V m c main_v16

/-- Row r, lane d of z (zero past the array: never read). -/
def zN (c : Dev nD) (r : ℕ) (d : Fin 512) : EReal :=
  if h : r < 8192 then zAll m c (ix2 ⟨r, h⟩ d) else 0

/-- e(r, s) = exp(2 <z_r, z_s>). -/
def termN (c : Dev nD) (r s : ℕ) : EReal :=
  Ideal.exp ((∑ d : Fin 512, zN m c r d * zN m c s d) * Ideal.ofBits .f32 0x40000000#32)

/-- One point: the body adds the key block's 2048 terms to the running column. -/
theorem point_sum (c : Dev nD) (t : Fin cfg0.N) (p : Fin 1024) (v13 : Vec Ideal S1024x1 .f32) :
    k0_pay2 (F := Ideal) (iblk m c 0 t) (iblk m c 1 t) v13 (ix2 p 0)
      = v13 (ix2 p 0) + ∑ l ∈ Finset.range 2048, termN m c (1024 * (t.val / 4) + p.val) (t.val % 4 * 2048 + l) := by
  have hN : t.val < 32 := lt_of_lt_of_eq t.isLt N_0
  rw [Cert.Payload.pay2_apply, Finset.sum_range]
  refine congrArg _ (Finset.sum_congr rfl fun l _ => ?_)
  unfold termN
  refine congrArg (fun x => Ideal.exp (x * _)) (Finset.sum_congr rfl fun d _ => ?_)
  have hl : l.val < 2048 := l.isLt
  have hp : p.val < 1024 := p.isLt
  rw [iblk0_apply m c t p d (by omega), iblk1_apply m c t l d (by omega)]
  unfold zN zAll
  rw [dif_pos (by omega), dif_pos (by omega)]

/-- After point t the column's entry p is the sum over the key blocks so far. -/
theorem scr_sum_nat (c : Dev nD) : ∀ (n : ℕ) (hn : n < cfg0.N) (p : Fin 1024),
    (outsAt0 m c n hn).2 (ix2 p 0)
      = ∑ j ∈ Finset.range (n % 4 + 1), ∑ l ∈ Finset.range 2048, termN m c (1024 * (n / 4) + p.val) (j * 2048 + l) := by
  intro n
  induction n using Nat.strong_induction_on with
  | _ n ih =>
    intro hn p
    have ps : ∀ v13 : Vec Ideal S1024x1 .f32, k0_pay2 (F := Ideal) (iblk m c 0 ⟨n, hn⟩) (iblk m c 1 ⟨n, hn⟩) v13 (ix2 p 0)
        = v13 (ix2 p 0) + ∑ l ∈ Finset.range 2048, termN m c (1024 * (n / 4) + p.val) (n % 4 * 2048 + l) :=
      fun v13 => point_sum m c ⟨n, hn⟩ p v13
    by_cases h0 : n % 4 = 0
    · have e : (outsAt0 m c n hn).2 = k0_pay2 (iblk m c 0 ⟨n, hn⟩) (iblk m c 1 ⟨n, hn⟩) (k0_pay1 (F := Ideal)) :=
        scr_first m c ⟨n, hn⟩ h0
      rw [e, ps, Cert.Payload.pay1_apply, zero_add, h0, Finset.sum_range_one]
    · have hlt : n - 1 < cfg0.N := Nat.lt_of_le_of_lt (Nat.sub_le _ _) hn
      have e : (outsAt0 m c n hn).2 = k0_pay2 (iblk m c 0 ⟨n, hn⟩) (iblk m c 1 ⟨n, hn⟩) (outsAt0 m c (n - 1) hlt).2 :=
        scr_next m c ⟨n, hn⟩ h0
      have e1 : (n - 1) / 4 = n / 4 := by omega
      have e2 : (n - 1) % 4 + 1 = n % 4 := by omega
      rw [e, ps, ih (n - 1) (by omega) hlt p, e1, e2]
      exact (Finset.sum_range_succ (fun j => ∑ l ∈ Finset.range 2048, termN m c (1024 * (n / 4) + p.val) (j * 2048 + l)) (n % 4)).symm

theorem scr_sum (c : Dev nD) (t : Fin cfg0.N) (p : Fin 1024) :
    (outsAt0 m c t.val t.isLt).2 (ix2 p 0)
      = ∑ j ∈ Finset.range (t.val % 4 + 1), ∑ l ∈ Finset.range 2048, termN m c (1024 * (t.val / 4) + p.val) (j * 2048 + l) :=
  scr_sum_nat m c t.val t.isLt p

/-- The launch's result column: entry n is the sum over all rows s of e(n, s). -/
def colG (c : Dev nD) : S8192x1.Idx → EReal := fun i => ∑ s ∈ Finset.range 8192, termN m c (i 0).val s

/-- What a last-case point writes back is its block of the column. -/
theorem flushed2_eq (c : Dev nD) (t : Fin cfg0.N) (hf : (cfg0.win 2).flush t = true) :
    (dats m 0 c).flushed 2 t = ((cfg0.win 2).blk t).view.read (Elt Ideal) (colG m c) := by
  have h1 : t.val % 4 = 3 := (flush0_2 t).mp hf
  show (cfg0.win 2).cut (grid0.coords t) ((dats m 0 c).after 2 t) = _
  rw [after0_2, out_last m c t h1]
  funext j
  obtain ⟨p, u, rfl⟩ : ∃ (p : Fin 1024) (u : Fin 1), j = ix2 p u := ⟨j 0, j 1, eq_ix2 j⟩
  obtain rfl : u = 0 := Subsingleton.elim _ _
  show (outsAt0 m c t.val t.isLt).2 (ix2 p 0) = colG m c (((cfg0.win 2).blk t).view.emb (ix2 p 0))
  rw [scr_sum, h1]
  unfold colG
  have e : ((((cfg0.win 2).blk t).view.emb (ix2 p 0)) 0).val = 1024 * (t.val / 4) + p.val := by
    obtain ⟨-, -, -, -, e4, -⟩ := idx_facts t
    show win0_2.index t (0 : Fin 2) * 1024 + 1 * p.val = _
    omega
  rw [e]
  exact (Cert.TileSum.sum_range_mul _ 4 2048).symm

theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v17).slice (win0_2.rect t)).set ↔ _
  rw [View.set_slice_whole, Rect.mem_set_unit]
  exact Iff.rfl

/-- Every row of the result is in the block some last-case point writes back. -/
theorem cover2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 32 := N_0
  have hlt : 4 * ((i 0).val / 1024) + 3 < cfg0.N := by omega
  obtain ⟨-, -, -, -, e4, e5⟩ := idx_facts ⟨4 * ((i 0).val / 1024) + 3, hlt⟩
  have e4' : win0_2.index ⟨4 * ((i 0).val / 1024) + 3, hlt⟩ (0 : Fin 2) = (4 * ((i 0).val / 1024) + 3) / 4 := e4
  refine ⟨⟨4 * ((i 0).val / 1024) + 3, hlt⟩, (flush0_2 _).mpr (show (4 * ((i 0).val / 1024) + 3) % 4 = 3 by omega), ?_⟩
  rw [mem_blk2]
  intro a
  match a with
  | ⟨0, _⟩ =>
    show win0_2.index ⟨4 * ((i 0).val / 1024) + 3, hlt⟩ (0 : Fin 2) * 1024 ≤ (i 0).val ∧ (i 0).val < win0_2.index ⟨4 * ((i 0).val / 1024) + 3, hlt⟩ (0 : Fin 2) * 1024 + 1024
    omega
  | ⟨1, _⟩ =>
    show win0_2.index ⟨4 * ((i 0).val / 1024) + 3, hlt⟩ (1 : Fin 2) * 1 ≤ (i 1).val ∧ (i 1).val < win0_2.index ⟨4 * ((i 0).val / 1024) + 3, hlt⟩ (1 : Fin 2) * 1 + 1
    omega

/-- THE LAUNCH'S RESULT: the column. -/
theorem column (c : Dev nD) : (dats m 0 c).arrAt 2 cfg0.N = colG m c :=
  (dats m 0 c).arrAt_eq_of_cover 2 (colG m c) (fun t hf => flushed2_eq m c t hf) cover2

/-- Entry n of the column over the rows of z as finite-type sums. -/
theorem colG_apply (c : Dev nD) (n : Fin 8192) :
    colG m c (ix2 n 0) = ∑ s : Fin 8192, Ideal.exp ((∑ d : Fin 512,
      zAll m c (ix2 n d) * zAll m c (ix2 s d)) * Ideal.ofBits .f32 0x40000000#32) := by
  unfold colG
  rw [Finset.sum_range]
  refine Finset.sum_congr rfl fun s _ => ?_
  unfold termN
  refine congrArg (fun x => Ideal.exp (x * _)) (Finset.sum_congr rfl fun d _ => ?_)
  unfold zN
  rw [dif_pos (show ((ix2 n (0 : Fin 1) : S8192x1.Idx) 0).val < 8192 from n.isLt), dif_pos s.isLt]
  try rfl

end Cert.KernelIdeal.Frame

end
-- ==== Proof.Bridge.lean ====
/-
  The value bridge: the loss the kernel's entry point computes from the launch's column equals the loss the
  reference computes, at the ideal instance, when every entry of the stacked normalised matrix is a real.

  Both programs end in the same three operations (sum of 8192 terms, divided by 8192) over a vector of 8192 terms
  "minus the positive pair's scaled inner product, plus the logarithm of a denominator".  The kernel multiplies by 2
  where the reference divides by 1/2, and the kernel's denominator is the full row sum of exp(2 <z_n, z_m>) less the
  self term, where the reference's is the row sum of the same exponentials times the mask 1 - [n = m].  Over the
  reals these are the same number; this file moves each side from the extended reals to the reals and back.
-/
import proofs.«168158_j18708877541981_2_alg».proof.Proof.Terms
import proofs.«168158_j18708877541981_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge

open Cert.KernelIdeal.Terms Idealize.ShloMosaic Idealize.ShloMosaic.ValueIdx

/-! ## The constants the two programs spell -/

/-- The word `0x00000000` denotes `0`. -/
theorem ofBits_zero : Ideal.ofBits .f32 0x00000000#32 = 0 := by
  simp [Ideal.ofBits, Ideal.ieee]

/-- The word `0x3F800000` denotes `1`. -/
theorem ofBits_one : Ideal.ofBits .f32 0x3F800000#32 = ((1 : ℝ) : EReal) := by
  simp [Ideal.ofBits, Ideal.ieee, -EReal.coe_mul]; norm_num

/-- The word `0x40000000` denotes `2`. -/
theorem ofBits_two : Ideal.ofBits .f32 0x40000000#32 = ((2 : ℝ) : EReal) := by
  simp [Ideal.ofBits, Ideal.ieee, -EReal.coe_mul]; norm_num

/-- The word `0x3F000000` denotes `1/2`. -/
theorem ofBits_half : Ideal.ofBits .f32 0x3F000000#32 = ((1 / 2 : ℝ) : EReal) := by
  simp [Ideal.ofBits, Ideal.ieee, -EReal.coe_mul]; norm_num

/-! ## Sums of reals inside the extended reals, and the mask law -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing against the mask `1 - [n = m]` is the full sum less the term at `n`. -/
theorem mask_sum {ι : Type*} [Fintype ι] [DecidableEq ι] (n : ι) (e : ι → ℝ) :
    ∑ m, (1 - (if n = m then (1 : ℝ) else 0)) * e m = (∑ m, e m) - e n := by
  simp [sub_mul, Finset.sum_sub_distrib]

/-- Two 32-bit words of naturals below 8192 are equal exactly when the naturals are. -/
theorem ofNat_eq_iff {a b : Nat} (ha : a < 8192) (hb : b < 8192) :
    BitVec.ofNat 32 a = BitVec.ofNat 32 b ↔ a = b := by
  constructor
  · intro h
    have := congrArg BitVec.toNat h
    simp only [BitVec.toNat_ofNat] at this
    omega
  · intro h; rw [h]

/-! ## The two programs' shared prefix is one term -/

section Shared
open Cert.ReferenceIdeal.Read

/-- The kernel side's normalised first argument is the reference's. -/
theorem rowNorm_eq_v7 (a : FVec Ideal Cert.KernelIdeal.S4096x512 .f32) : rowNorm (F := Ideal) a = val_main_v7 (F := Ideal) a := rfl
/-- The kernel side's normalised second argument is the reference's. -/
theorem rowNorm_eq_v15 (a : FVec Ideal Cert.KernelIdeal.S4096x512 .f32) : rowNorm (F := Ideal) a = val_main_v15 (F := Ideal) a := rfl
/-- The stacked matrix `z` is the reference's. -/
theorem zOf_eq_v16 (a0 a1 : FVec Ideal Cert.KernelIdeal.S4096x512 .f32) : zOf (F := Ideal) a0 a1 = val_main_v16 (F := Ideal) a0 a1 := rfl

end Shared

/-! ## Words: the mask's comparison -/

/-- The mask's comparison word, read as a real: `1` on the diagonal, `0` off it. -/
theorem eye_word {a b : Nat} (ha : a < 8192) (hb : b < 8192) :
    (((IntOp.cmpi .eq (IntOp.addi (BitVec.ofNat 32 a) 0#32) (BitVec.ofNat 32 b)).toNat : ℝ) : EReal)
      = ((if a = b then (1 : ℝ) else 0 : ℝ) : EReal) := by
  unfold IntOp.cmpi IntOp.addi
  rw [BitVec.add_zero]
  by_cases h : a = b
  · subst h; simp
  · have : ¬ BitVec.ofNat 32 a = BitVec.ofNat 32 b := fun hh => h ((ofNat_eq_iff ha hb).mp hh)
    simp [this, h]

/-! ## Index bookkeeping -/

section Idx
open Cert.ReferenceIdeal.Read

theorem lidx_eq (n m : Fin 8192) (k : Fin 512) : lidx_main_v17 (idx_main_v33 (ix1 n) m) k = ix2 n k := by
  funext a; match a with | ⟨0, _⟩ => rfl | ⟨1, _⟩ => rfl
theorem ridx_eq (n m : Fin 8192) (k : Fin 512) : ridx_main_v17 (idx_main_v33 (ix1 n) m) k = ix2 m k := by
  funext a; match a with | ⟨0, _⟩ => rfl | ⟨1, _⟩ => rfl

end Idx

/-! ## The reference's denominator over the reals -/

section Ref
open Cert.ReferenceIdeal.Read

/-- The reference's row sum at `n`: the masked sum of the exponentials, as a real. -/
theorem denR (a0 a1 : FVec Ideal Cert.KernelIdeal.S4096x512 .f32) (r : Cert.KernelIdeal.S8192x512.Idx → ℝ)
    (hr : ∀ i, val_main_v16 (F := Ideal) a0 a1 i = (r i : EReal)) (n : Fin 8192) :
    val_main_v33 (F := Ideal) a0 a1 (ix1 n)
      = ((∑ m : Fin 8192, (1 - (if n = m then (1 : ℝ) else 0)) * Real.exp ((∑ d : Fin 512, r (ix2 n d) * r (ix2 m d)) * 2) : ℝ) : EReal) := by
  rw [val_main_v33_apply, val_main_cst_6_apply, Ideal.ofBits_def, ofBits_zero, zero_add, coe_sum]
  refine Finset.sum_congr rfl fun m _ => ?_
  rw [val_main_v32_apply, val_main_v28_apply, val_main_v31_apply, val_main_v30_apply, val_main_v29_apply,
    val_main_cst_5_apply, val_main_v27_apply, val_main_cst_4_apply, val_main_v26_apply, val_main_v25_apply,
    val_main_v24_apply, val_main_v21_apply, val_main_v22_apply, val_main_v23_apply, val_main_c_apply, val_main_v17_apply]
  simp only [Ideal.ofBits_def, Ideal.mulf_def, Ideal.subf_def, Ideal.hostDivf_def, Ideal.hostUnary_exp_def, ofBits_one, ofBits_half, lidx_eq, ridx_eq, hr]
  have hu : FloatOps.uitofp (F := Ideal) FTy.f32
      (IntOp.cmpi CmpIPredicate.eq (IntOp.addi (BitVec.ofNat 32 (ix1 n 0).val) 0#32) (BitVec.ofNat 32 m.val))
        = ((if n = m then (1 : ℝ) else 0 : ℝ) : EReal) := by
    show (((IntOp.cmpi .eq (IntOp.addi (BitVec.ofNat 32 n.val) 0#32) (BitVec.ofNat 32 m.val)).toNat : ℝ) : EReal) = _
    rw [eye_word n.isLt m.isLt]
    simp only [Fin.val_inj]
  have hG : (∑ x : Fin 512, (r (ix2 n x) : EReal) * (r (ix2 m x) : EReal))
      = ((∑ x : Fin 512, r (ix2 n x) * r (ix2 m x) : ℝ) : EReal) := by
    rw [coe_sum]; simp only [EReal.coe_mul]
  rw [hu, hG, Ideal.div_coe (by norm_num), ← EReal.coe_mul, Ideal.exp_coe, ← EReal.coe_sub, ← EReal.coe_mul]
  norm_num

end Ref

/-! ## The kernel side's denominator over the reals -/

section Ker
open Cert.KernelIdeal

/-- A row sum of an `[8192, 512]` matrix from the zero word, at row `n`. -/
theorem rowsum_apply (y : FVec Ideal S8192x512 .f32) (h : S8192x512.ReducesTo [1] S8192) (h0 : 0 < S_.numel) (n : Fin 8192) :
    Host.reduceAdd y (constant S_ .f32 0x00000000#32) h h0 (ix1 n) = ∑ k : Fin 512, y (ix2 n k) := by
  simp only [Host.reduceAdd, Ideal.hostReduceAdd_def]
  rw [Ideal.hostReduceAdd_single h (by decide), constant_apply, ofBits_zero, zero_add]
  refine Finset.sum_congr rfl fun k _ => ?_
  exact congrArg y (funext fun a => Fin.ext (by match a with | ⟨0, _⟩ => rfl | ⟨1, _⟩ => rfl))

/-- The kernel side's denominator at row `n`: the launch's full row sum less the self term, as a real. -/
theorem denK (z : FVec Ideal S8192x512 .f32) (r : S8192x512.Idx → ℝ) (hr : ∀ i, z i = (r i : EReal))
    (kout : FVec Ideal S8192x1 .f32)
    (hk : ∀ n : Fin 8192, kout (ix2 n 0) = ∑ m : Fin 8192, Ideal.exp ((∑ d : Fin 512, z (ix2 n d) * z (ix2 m d)) * Ideal.ofBits .f32 0x40000000#32))
    (hsc : S8192x1.ShapeCasts S8192) (hred : S8192x512.ReducesTo [1] S8192) (h0 : 0 < S_.numel)
    (hb : S_.BroadcastsInDim S8192 (![] : Fin 0 → Fin S8192.rank)) (hlt : FTy.bits .bf16 < FTy.bits .f32) (n : Fin 8192) :
    subf (shapeCast S8192 kout hsc)
        (Host.exp (mulf
          (Host.reduceAdd (mulf (extf .f32 (truncf .bf16 z hlt) hlt) (extf .f32 (truncf .bf16 z hlt) hlt))
            (constant S_ .f32 0x00000000#32) hred h0)
          (broadcastInDim S8192 ![] hb (constant S_ .f32 0x40000000#32)))) (ix1 n)
      = (((∑ m : Fin 8192, Real.exp ((∑ d : Fin 512, r (ix2 n d) * r (ix2 m d)) * 2))
          - Real.exp ((∑ d : Fin 512, r (ix2 n d) * r (ix2 n d)) * 2) : ℝ) : EReal) := by
  have h1 : shapeCast S8192 kout hsc (ix1 n) = kout (ix2 n 0) :=
    shapeCast_apply kout hsc _ _ (by
      rw [Shape.rowMajor_val_two, Shape.rowMajor_val_one]
      show n.val * 1 + 0 = n.val
      omega)
  have h3 : broadcastInDim S8192 ![] hb (constant (F := Ideal) S_ .f32 0x40000000#32) (ix1 n) = Ideal.ofBits .f32 0x40000000#32 :=
    broadcastInDim_apply _ hb _ _ ix0 (fun a => a.elim0)
  show shapeCast S8192 kout hsc (ix1 n)
      - Ideal.exp (Host.reduceAdd (mulf (extf .f32 (truncf .bf16 z hlt) hlt) (extf .f32 (truncf .bf16 z hlt) hlt))
            (constant S_ .f32 0x00000000#32) hred h0 (ix1 n)
          * broadcastInDim S8192 ![] hb (constant (F := Ideal) S_ .f32 0x40000000#32) (ix1 n)) = _
  rw [h1, h3, rowsum_apply, hk n]
  simp only [mulf_apply, extf_apply, truncf_apply, hr, ofBits_two]
  simp only [← EReal.coe_mul, ← coe_sum, Ideal.exp_coe, ← EReal.coe_sub]

end Ker

/-! ## The host's elementwise operations at an index -/

section HostApply
variable {s : Shape} {φ : FTy}
theorem hostNegf_apply (v : FVec Ideal s φ) (i : s.Idx) : Host.negf v i = -(v i) := rfl
theorem hostLog_apply (v : FVec Ideal s φ) (i : s.Idx) : Host.log v i = Ideal.log (v i) := rfl
end HostApply

/-- A scalar word broadcast to the 8192 rows reads that word's value at every row. -/
theorem splat_apply (b : BitVec 32)
    (hb : Cert.KernelIdeal.S_.BroadcastsInDim Cert.KernelIdeal.S8192 (![] : Fin 0 → Fin Cert.KernelIdeal.S8192.rank)) (n : Fin 8192) :
    broadcastInDim Cert.KernelIdeal.S8192 ![] hb (constant (F := Ideal) Cert.KernelIdeal.S_ .f32 b) (ix1 n) = Ideal.ofBits .f32 b :=
  broadcastInDim_apply _ hb _ _ ix0 (fun a => a.elim0)

/-! ## The bridge -/

section Main
open Cert.ReferenceIdeal.Read

/-- The last two operations (the sum of the 8192 terms, the division by 8192) are a function of the vector of terms. -/
theorem finish_congr (V W : FVec Ideal Cert.KernelIdeal.S8192 .f32) (hVW : V = W)
    (c : Cert.KernelIdeal.S_.Idx → Ideal .f32) (p : Cert.KernelIdeal.S8192.ReducesTo [0] Cert.KernelIdeal.S_)
    (h : 0 < Cert.KernelIdeal.S_.numel) (d : FVec Ideal Cert.KernelIdeal.S_ .f32) :
    Host.divf (Host.reduceAdd V c p h) d = Host.divf (Host.reduceAdd W c p h) d := by rw [hVW]

theorem loss_eq (a0 a1 : FVec Ideal Cert.KernelIdeal.S4096x512 .f32)
    (hz : ∀ i, ∃ r : ℝ, zOf (F := Ideal) a0 a1 i = (r : EReal))
    (kout : FVec Ideal Cert.KernelIdeal.S8192x1 .f32)
    (hk : ∀ n : Fin 8192, kout (ix2 n 0) = ∑ m : Fin 8192, Ideal.exp ((∑ d : Fin 512, zOf (F := Ideal) a0 a1 (ix2 n d) * zOf (F := Ideal) a0 a1 (ix2 m d)) * Ideal.ofBits .f32 0x40000000#32)) :
    lossOf (F := Ideal) (rowNorm a0) (rowNorm a1) (zOf a0 a1) kout = Cert.ReferenceIdeal.Read.val_main_v40 (F := Ideal) a0 a1 := by
  choose r hr using hz
  unfold lossOf
  refine (finish_congr _ (val_main_v38 (F := Ideal) a0 a1) ?_ _ _ _ _).trans ?_
  · funext j
    obtain ⟨n, rfl⟩ : ∃ n : Fin 8192, j = ix1 n := ⟨j 0, eq_ix1 j⟩
    rw [val_main_v38_apply, addf_apply, Ideal.addf_def]
    congr 1
    · rw [val_main_v36_apply, val_main_v35_apply, val_main_v34_apply, val_main_cst_7_apply, hostNegf_apply, mulf_apply,
        splat_apply, Ideal.hostNegf_def, Ideal.negf_def, Ideal.hostDivf_def, Ideal.ofBits_def, ofBits_two, ofBits_half,
        Ideal.div_coe (by norm_num), show ((1 / (1 / 2) : ℝ)) = 2 by norm_num]
      rfl
    · rw [val_main_v37_apply, Ideal.hostUnary_log_def, hostLog_apply, denK (zOf a0 a1) r hr kout hk, denR a0 a1 r hr n, mask_sum]
  · rfl

end Main

end Cert.Bridge

end
-- ==== Proof.Finite.lean ====
/-
  Finiteness.  Under the certificate's precondition every entry of the two argument arrays is a real number
  (neither infinity nor the junk value), and then so is every entry of the normalised, stacked matrix `z`:
  a row of reals has a real, nonnegative sum of squares, whose square root is real; the larger of that and the
  positive constant 1e-12 is a positive real; and a real divided by a nonzero real is a real.
-/
import proofs.«168158_j18708877541981_2_alg».proof.Proof.Terms
import proofs.«168158_j18708877541981_2_alg».proof.Defs
import proofs.«168158_j18708877541981_2_alg».proof.Proof.Gen.Pre_finite_inputs
import Idealize.ShloMosaic.Lib.ValueIdx
import Idealize.ShloMosaic.Lib.ReduceAll
import Idealize.ShloMosaic.Lib.Pipeline.Value
import Idealize.ShloMosaic.PureOps.Ideal.Laws

noncomputable section

namespace Cert.Finite

open Cert.KernelIdeal Cert.KernelIdeal.Gen Cert.KernelIdeal.Terms Idealize.ShloMosaic

/-- The coercion of a finite sum of reals is the sum of the coercions. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The pattern of 1e-12 denotes a positive real. -/
theorem eps_real : ∃ e : ℝ, 0 < e ∧ Ideal.ofBits .f32 0x2B8CBCCC#32 = ((e : ℝ) : EReal) := by
  refine ⟨9223372 * (2 ^ 63)⁻¹, by positivity, ?_⟩
  simp [Ideal.ofBits, Ideal.ieee]

/-- The pattern of zero denotes zero. -/
theorem zero_real : Ideal.ofBits .f32 0x00000000#32 = ((0 : ℝ) : EReal) := by
  simp [Ideal.ofBits, Ideal.ieee]

/-- Entry `k` of the row of `i` in a matrix. -/
abbrev rowIdx (i : S4096x512.Idx) (k : Fin 512) : S4096x512.Idx := fun a => match a with
  | ⟨0, _⟩ => ⟨(i 0).val, (i 0).isLt⟩
  | ⟨1, _⟩ => ⟨k.val, k.isLt⟩

/-- The row of `i` in a one-column matrix. -/
abbrev colIdx (i : S4096x512.Idx) : S4096x1.Idx := fun a => match a with
  | ⟨0, _⟩ => ⟨(i 0).val, (i 0).isLt⟩
  | ⟨1, _⟩ => ⟨0, Nat.one_pos⟩

/-- The row of `i` in a vector. -/
abbrev vecIdx (i : S4096x1.Idx) : S4096.Idx := fun a => match a with
  | ⟨0, _⟩ => ⟨(i 0).val, (i 0).isLt⟩

/-- Entry `k` of row `i`. -/
abbrev entryIdx (i : S4096.Idx) (k : Fin 512) : S4096x512.Idx := fun a => match a with
  | ⟨0, _⟩ => ⟨(i 0).val, (i 0).isLt⟩
  | ⟨1, _⟩ => ⟨k.val, k.isLt⟩

theorem bcast_col_apply {α : Type} (y : S4096x1.Idx → α) (i : S4096x512.Idx) :
    broadcastInDim S4096x512 (![0, 1] : Fin 2 → Fin S4096x512.rank) bcast_S4096x1_S4096x512_0_1 y i = y (colIdx i) :=
  broadcastInDim_apply _ bcast_S4096x1_S4096x512_0_1 y i (colIdx i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

theorem bcast_vec_apply {α : Type} (y : S4096.Idx → α) (i : S4096x1.Idx) :
    broadcastInDim S4096x1 (![0] : Fin 1 → Fin S4096x1.rank) bcast_S4096_S4096x1_0 y i = y (vecIdx i) :=
  broadcastInDim_apply _ bcast_S4096_S4096x1_0 y i (vecIdx i) (fun a => match a with
    | ⟨0, _⟩ => by show (i 0).val = if (4096 : Nat) = 1 then 0 else (i 0).val; rw [if_neg (by decide)])

theorem bcast_scalar_apply {α : Type} (y : S_.Idx → α) (i : S4096x1.Idx) :
    broadcastInDim S4096x1 (![] : Fin 0 → Fin S4096x1.rank) bcast_S_S4096x1 y i = y (fun a => a.elim0) :=
  broadcastInDim_apply _ bcast_S_S4096x1 y i (fun a => a.elim0) (fun a => a.elim0)

/-- The host's sum along a row at the ideal instance: the initial value plus the sum of the row's entries. -/
theorem rowSum_apply (y : FVec Ideal S4096x512 .f32) (init : FVec Ideal S_ .f32) (i : S4096.Idx) :
    Host.reduceAdd (F := Ideal) y init reducesTo_S4096x512_S4096_d1 h_S_ i
      = init (Shape.Idx.first h_S_) + ∑ k : Fin 512, y (entryIdx i k) := by
  simp only [Host.reduceAdd, Ideal.hostReduceAdd_def]
  rw [Ideal.hostReduceAdd_single reducesTo_S4096x512_S4096_d1 (by decide)]
  refine congrArg (_ + ·) (Finset.sum_congr rfl fun k _ => ?_)
  exact congrArg y (funext fun a => Fin.ext (by match a with | ⟨0, _⟩ => rfl | ⟨1, _⟩ => rfl))

/-- The normalised matrix at an index: the entry over the larger of its row's Euclidean norm and 1e-12. -/
theorem rowNorm_apply (a : FVec Ideal S4096x512 .f32) (i : S4096x512.Idx) :
    rowNorm (F := Ideal) a i
      = Ideal.div (a i) (max (Ideal.sqrt (Ideal.ofBits .f32 0x00000000#32 + ∑ k : Fin 512, a (rowIdx i k) * a (rowIdx i k)))
          (Ideal.ofBits .f32 0x2B8CBCCC#32)) := by
  unfold rowNorm
  show FloatOps.hostDivf (a i) _ = _
  rw [bcast_col_apply]
  show FloatOps.hostDivf (a i) (FloatOps.maximumf (FloatOps.hostUnary .sqrt (broadcastInDim (s := S4096) S4096x1 ![0] bcast_S4096_S4096x1_0 _ (colIdx i)))
      (broadcastInDim (s := S_) S4096x1 ![] bcast_S_S4096x1 _ (colIdx i))) = _
  rw [bcast_vec_apply, bcast_scalar_apply, rowSum_apply]
  have hidx : ∀ k, entryIdx (vecIdx (colIdx i)) k = rowIdx i k := fun k => funext fun b => by
    match b with
    | ⟨0, _⟩ => rfl
    | ⟨1, _⟩ => rfl
  simp only [hidx]
  rfl

/-- The larger of two reals, coerced. -/
theorem coe_max (x y : ℝ) : max (x : EReal) (y : EReal) = ((max x y : ℝ) : EReal) :=
  (EReal.coe_strictMono.monotone.map_max).symm

/-- A matrix of reals, normalised, is a matrix of reals. -/
theorem rowNorm_real (a : FVec Ideal S4096x512 .f32) (ha : ∀ i, ∃ r : ℝ, a i = (r : EReal)) :
    ∀ i, ∃ r : ℝ, rowNorm (F := Ideal) a i = (r : EReal) := by
  intro i
  obtain ⟨e, he, hE⟩ := eps_real
  choose f hf using ha
  rw [rowNorm_apply, zero_real, hE]
  have hs : (∑ k : Fin 512, a (rowIdx i k) * a (rowIdx i k))
      = ((∑ k : Fin 512, f (rowIdx i k) * f (rowIdx i k) : ℝ) : EReal) := by
    rw [← coe_sum]
    exact Finset.sum_congr rfl fun k _ => by rw [hf, EReal.coe_mul]
  rw [hs, ← EReal.coe_add, zero_add]
  have hnn : ¬ (∑ k : Fin 512, f (rowIdx i k) * f (rowIdx i k)) < 0 :=
    not_lt.2 (Finset.sum_nonneg fun k _ => mul_self_nonneg _)
  rw [Ideal.sqrt_coe, if_neg hnn, coe_max, hf i]
  have hpos : 0 < max (Real.sqrt (∑ k : Fin 512, f (rowIdx i k) * f (rowIdx i k))) e := lt_max_of_lt_right he
  rw [Ideal.div_coe hpos.ne', ← EReal.coe_mul]
  exact ⟨_, rfl⟩

/-- Two matrices of reals, stacked, are a matrix of reals: every row of the stack is a row of one of the two. -/
theorem stack_real (zi zj : FVec Ideal S4096x512 .f32) (hi : ∀ i, ∃ r : ℝ, zi i = (r : EReal))
    (hj : ∀ i, ∃ r : ℝ, zj i = (r : EReal)) : ∀ j, ∃ r : ℝ, stack (F := Ideal) zi zj j = (r : EReal) := by
  intro j
  unfold stack
  have hr : S4096x512.rank = S8192x512.rank := rfl
  by_cases hlt : (j 0).val < 4096
  · let I : S4096x512.Idx := fun b => match b with
      | ⟨0, _⟩ => ⟨(j 0).val, hlt⟩
      | ⟨1, _⟩ => ⟨(j 1).val, (j 1).isLt⟩
    have hI : ∀ b : Fin S4096x512.rank, (I b).val = (j (b.cast hr)).val := by
      intro b
      match b with
      | ⟨0, _⟩ => rfl
      | ⟨1, _⟩ => rfl
    rw [concatenate_pair_apply_left (0 : Fin S8192x512.rank) zi zj concatenates_S4096x512_S4096x512_S8192x512_d0 j hr I hI]
    exact hi _
  · have h8 : (j 0).val < 8192 := (j 0).isLt
    have h2 : (j 0).val - 4096 < 4096 := by omega
    let I : S4096x512.Idx := fun b => match b with
      | ⟨0, _⟩ => ⟨(j 0).val - 4096, h2⟩
      | ⟨1, _⟩ => ⟨(j 1).val, (j 1).isLt⟩
    have hI : ∀ b : Fin S4096x512.rank, b.cast hr ≠ (0 : Fin S8192x512.rank) → (I b).val = (j (b.cast hr)).val := by
      intro b hb
      have hlt2 : b.val < 2 := b.isLt
      have hne : b.val ≠ 0 := fun h0 => hb (Fin.ext h0)
      have hb1 : b = ⟨1, by decide⟩ := Fin.ext (by show b.val = 1; omega)
      rw [hb1]
      rfl
    have hA : (I ((0 : Fin S8192x512.rank).cast hr.symm)).val + S4096x512.size ((0 : Fin S8192x512.rank).cast hr.symm) = (j 0).val := by
      show (j 0).val - 4096 + 4096 = (j 0).val
      omega
    rw [concatenate_pair_apply_right (0 : Fin S8192x512.rank) zi zj concatenates_S4096x512_S4096x512_S8192x512_d0 j hr hr I hI hA]
    exact hj _

/-- The stacked normalised rows of two matrices of reals are reals. -/
theorem zOf_real (a0 a1 : FVec Ideal S4096x512 .f32) (h0 : ∀ i, ∃ r : ℝ, a0 i = (r : EReal))
    (h1 : ∀ i, ∃ r : ℝ, a1 i = (r : EReal)) : ∀ i, ∃ r : ℝ, zOf (F := Ideal) a0 a1 i = (r : EReal) :=
  stack_real _ _ (rowNorm_real a0 h0) (rowNorm_real a1 h1)

/-- The predicate's scalar result has one index. -/
instance : Subsingleton Cert.Pre_finite_inputs.S_.Idx := ⟨fun a b => funext fun d => d.elim0⟩

/-- A value whose absolute value lies below +infinity is a real number. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  induction x using EReal.rec with
  | bot => simp [Ideal.cmp] at hx
  | coe r => exact ⟨r, rfl⟩
  | top => simp [Ideal.cmp] at hx

/-- Under the precondition every entry of both argument arrays is a real number. -/
theorem inputs_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg1) i = (r : EReal)) := by
  have hc := congrFun (h c) ValueIdx.ix0
  dsimp only [Cert.Pre_finite_inputs.fn] at hc
  obtain ⟨h0, h1⟩ := IntOp.andi_eq_one.1 hc
  exact ⟨fun i => real_of_abs_lt_inf _ (Host.reduce_andi_all _ _ _ _ _ h0 i),
    fun i => real_of_abs_lt_inf _ (Host.reduce_andi_all _ _ _ _ _ h1 i)⟩

end Cert.Finite

end
-- ==== Proof.KIClaims.lean ====
/-
  The value of the kernel program's run, and the certificate's claims.

  Under the precondition every entry of the two arguments is a real number, hence so is every entry of z; the launch
  leaves in its result column, for every row n, the sum over all rows s of exp(2 <z_n, z_s>); and with those two facts
  the loss the later host operations compute from z and that column is the reference program's loss: removing the
  self term from the full sum is the reference's masked sum, since every term is a real number.
-/
import proofs.«168158_j18708877541981_2_alg».proof.Proof.KIHost
import proofs.«168158_j18708877541981_2_alg».proof.Proof.KIColumn
import proofs.«168158_j18708877541981_2_alg».proof.Proof.Bridge
import proofs.«168158_j18708877541981_2_alg».proof.Proof.Finite

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

open Cert.KernelIdeal.Terms

/-- The idealized kernel program's run ends with the reference's loss of the arguments in the result buffer. -/
theorem run_value (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v36)
        = Cert.ReferenceIdeal.Read.val_main_v40 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨(h c).1.trans ?_, (h c).2⟩) (run_loss (F := Ideal) m ρ)
  rw [column m c]
  obtain ⟨h0, h1⟩ := Cert.Finite.inputs_real m hpre c
  refine Cert.Bridge.loss_eq _ _ (Cert.Finite.zOf_real _ _ h0 h1) (colG m c) (fun n => ?_)
  rw [colG_apply m c n]
  have ez : zAll m c = zOf (F := Ideal) (m ((c : Thread nD τ).loc main_arg0)) (m ((c : Thread nD τ).loc main_arg1)) := V_v16 m c
  rw [ez]

end Cert.KernelIdeal.Frame

end
-- ==== Proof.lean ====
/-
  The certificate: an NT-Xent loss whose pairwise sums are computed by one kernel launch, against its plain reference.

  Both programs normalise the rows of their two arguments and stack them into z (8192 rows).  The reference forms all
  inner products <z_n, z_s>, and for each row n sums exp(<z_n, z_s> / (1/2)) over the rows s with the diagonal masked
  out.  The kernel program launches one kernel that, query block by query block and key block by key block, adds
  exp(2 <z_n, z_s>) over ALL rows s into a running column, and the host then subtracts the diagonal term
  exp(2 <z_n, z_n>).  Both then take the logarithm, add minus the positive pair's inner product over the temperature,
  and average.  On the extended reals, a change of float format being the identity, the two agree as soon as every
  term is a real number, which the precondition (finite inputs) gives: dividing by 1/2 is multiplying by 2, and a
  finite sum with one term masked out is the full sum minus that term.

  The launch reads z through two windows of ONE array, so its run is stated with the array's buffer held in two
  halves; the running column is carried from point to point in the launch's invariant.
-/
import proofs.«168158_j18708877541981_2_alg».proof.Defs
import proofs.«168158_j18708877541981_2_alg».proof.Proof.Gen.Kernel
import proofs.«168158_j18708877541981_2_alg».proof.Proof.Gen.KernelIdeal
import proofs.«168158_j18708877541981_2_alg».proof.Proof.Gen.ReferenceIdeal
import proofs.«168158_j18708877541981_2_alg».proof.Proof.Gen.Pre_finite_inputs
import proofs.«168158_j18708877541981_2_alg».proof.Proof.Gen.ReferenceIdeal.Run
import proofs.«168158_j18708877541981_2_alg».proof.Proof.Gen.ReferenceIdeal.Read
import proofs.«168158_j18708877541981_2_alg».proof.Proof.KArgs
import proofs.«168158_j18708877541981_2_alg».proof.Proof.KIClaims
import Idealize.ShloMosaic.Adequacy
import Idealize.ShloMosaic.Init

noncomputable section

namespace Cert.Proof

open Idealize.ShloMosaic Idealize.ShloMosaic.TcCoe Idealize.SL.Sem

/-- The word-level kernel program runs to the end, nothing faulting, its arguments unchanged. -/
theorem frame_k : Cert.frame_Kernel := fun m ρ _ => Cert.Kernel.Frame.frame m ρ

/-- So does the idealized kernel program. -/
theorem frame_ki : Cert.frame_KernelIdeal := fun m ρ _ => Cert.KernelIdeal.Frame.frame m ρ

/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the reference's loss of the arguments. -/
theorem algebraic : Cert.algebraic_KernelIdeal_ReferenceIdeal := by
  intro m ρ m' ρ' hpre hagree
  refine ⟨_, Cert.KernelIdeal.Frame.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
